-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S16384x5x1 : S_.BroadcastsInDim S16384x5x1 (![] : Fin 0 → Fin S16384x5x1.rank)
  reducesTo_S16384x5x1_S_d0_1_2 : S16384x5x1.ReducesTo [0, 1, 2] S_
  bcast_S_S16384x5x5 : S_.BroadcastsInDim S16384x5x5 (![] : Fin 0 → Fin S16384x5x5.rank)
  reducesTo_S16384x5x5_S_d0_1_2 : S16384x5x5.ReducesTo [0, 1, 2] S_
  bcast_S_S16384x1x5 : S_.BroadcastsInDim S16384x1x5 (![] : Fin 0 → Fin S16384x1x5.rank)
  reducesTo_S16384x1x5_S_d0_1_2 : S16384x1x5.ReducesTo [0, 1, 2] S_
  bcast_S_S16384x1x1 : S_.BroadcastsInDim S16384x1x1 (![] : Fin 0 → Fin S16384x1x1.rank)
  reducesTo_S16384x1x1_S_d0_1_2 : S16384x1x1.ReducesTo [0, 1, 2] S_

variable [Facts]

def fn_part1 {F : FTy → Type} [FloatOps F] (main_arg4 : FVec F S16384x5x1 .f32) (main_arg5 : FVec F S16384x1x5 .f32) (main_arg6 : FVec F S16384x1x1 .f32) (main_v13 : IVec S_ 1) (main_v16 : IVec S16384x5x5 1) : IVec S_ 1 :=
  let main_c_5 : IVec S_ 1 := constantI S_ 1 1#1
  let main_v17 : IVec S_ 1 := (fun x v => Host.reduce IntOp.andi x v reducesTo_S16384x5x5_S_d0_1_2 h_S_) main_v16 main_c_5
  let main_v18 : IVec S_ 1 := andi main_v13 main_v17
  let main_v19 : FVec F S16384x5x1 .f32 := Host.absf main_arg4
  let main_cst_6 : FVec F S_ .f32 := constant S_ .f32 0x7F800000#32
  let main_v20 : FVec F S16384x5x1 .f32 := broadcastInDim S16384x5x1 ![] bcast_S_S16384x5x1 main_cst_6
  let main_v21 : IVec S16384x5x1 1 := cmpf .olt main_v19 main_v20
  let main_c_7 : IVec S_ 1 := constantI S_ 1 1#1
  let main_v22 : IVec S_ 1 := (fun x v => Host.reduce IntOp.andi x v reducesTo_S16384x5x1_S_d0_1_2 h_S_) main_v21 main_c_7
  let main_v23 : IVec S_ 1 := andi main_v18 main_v22
  let main_v24 : FVec F S16384x1x5 .f32 := Host.absf main_arg5
  let main_cst_8 : FVec F S_ .f32 := constant S_ .f32 0x7F800000#32
  let main_v25 : FVec F S16384x1x5 .f32 := broadcastInDim S16384x1x5 ![] bcast_S_S16384x1x5 main_cst_8
  let main_v26 : IVec S16384x1x5 1 := cmpf .olt main_v24 main_v25
  let main_c_9 : IVec S_ 1 := constantI S_ 1 1#1
  let main_v27 : IVec S_ 1 := (fun x v => Host.reduce IntOp.andi x v reducesTo_S16384x1x5_S_d0_1_2 h_S_) main_v26 main_c_9
  let main_v28 : IVec S_ 1 := andi main_v23 main_v27
  let main_v29 : FVec F S16384x1x1 .f32 := Host.absf main_arg6
  let main_cst_10 : FVec F S_ .f32 := constant S_ .f32 0x7F800000#32
  let main_v30 : FVec F S16384x1x1 .f32 := broadcastInDim S16384x1x1 ![] bcast_S_S16384x1x1 main_cst_10
  let main_v31 : IVec S16384x1x1 1 := cmpf .olt main_v29 main_v30
  let main_c_11 : IVec S_ 1 := constantI S_ 1 1#1
  let main_v32 : IVec S_ 1 := (fun x v => Host.reduce IntOp.andi x v reducesTo_S16384x1x1_S_d0_1_2 h_S_) main_v31 main_c_11
  let main_v33 : IVec S_ 1 := andi main_v28 main_v32
  main_v33

def fn {F : FTy → Type} [FloatOps F] (main_arg0 : FVec F S2048x128 .f32) (main_arg1 : FVec F S16384x5x1 .f32) (main_arg2 : FVec F S16384x5x1 .f32) (main_arg3 : FVec F S16384x5x5 .f32) (main_arg4 : FVec F S16384x5x1 .f32) (main_arg5 : FVec F S16384x1x5 .f32) (main_arg6 : FVec F S16384x1x1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S16384x5x1 .f32 := Host.absf main_arg1
  let main_cst_0 : FVec F S_ .f32 := constant S_ .f32 0x7F800000#32
  let main_v5 : FVec F S16384x5x1 .f32 := broadcastInDim S16384x5x1 ![] bcast_S_S16384x5x1 main_cst_0
  let main_v6 : IVec S16384x5x1 1 := cmpf .olt main_v4 main_v5
  let main_c_1 : IVec S_ 1 := constantI S_ 1 1#1
  let main_v7 : IVec S_ 1 := (fun x v => Host.reduce IntOp.andi x v reducesTo_S16384x5x1_S_d0_1_2 h_S_) main_v6 main_c_1
  let main_v8 : IVec S_ 1 := andi main_v3 main_v7
  let main_v9 : FVec F S16384x5x1 .f32 := Host.absf main_arg2
  let main_cst_2 : FVec F S_ .f32 := constant S_ .f32 0x7F800000#32
  let main_v10 : FVec F S16384x5x1 .f32 := broadcastInDim S16384x5x1 ![] bcast_S_S16384x5x1 main_cst_2
  let main_v11 : IVec S16384x5x1 1 := cmpf .olt main_v9 main_v10
  let main_c_3 : IVec S_ 1 := constantI S_ 1 1#1
  let main_v12 : IVec S_ 1 := (fun x v => Host.reduce IntOp.andi x v reducesTo_S16384x5x1_S_d0_1_2 h_S_) main_v11 main_c_3
  let main_v13 : IVec S_ 1 := andi main_v8 main_v12
  let main_v14 : FVec F S16384x5x5 .f32 := Host.absf main_arg3
  let main_cst_4 : FVec F S_ .f32 := constant S_ .f32 0x7F800000#32
  let main_v15 : FVec F S16384x5x5 .f32 := broadcastInDim S16384x5x5 ![] bcast_S_S16384x5x5 main_cst_4
  let main_v16 : IVec S16384x5x5 1 := cmpf .olt main_v14 main_v15
  fn_part1 (F := F) main_arg4 main_arg5 main_arg6 main_v13 main_v16
-- ==== Kernel.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x128x5 : Shape := ⟨3, ![128, 128, 5]⟩
abbrev S128x5x128 : Shape := ⟨3, ![128, 5, 128]⟩
abbrev S128x128x5x5 : Shape := ⟨4, ![128, 128, 5, 5]⟩
abbrev S128x5x5x128 : Shape := ⟨4, ![128, 5, 5, 128]⟩
abbrev S128x128 : Shape := ⟨2, ![128, 128]⟩
abbrev S128x2048 : Shape := ⟨2, ![128, 2048]⟩
abbrev S128x512 : Shape := ⟨2, ![128, 512]⟩
abbrev S512x128 : Shape := ⟨2, ![512, 128]⟩
abbrev S8x512 : Shape := ⟨2, ![8, 512]⟩
abbrev S8x5x128 : Shape := ⟨3, ![8, 5, 128]⟩
abbrev S8x5x5x128 : Shape := ⟨4, ![8, 5, 5, 128]⟩
abbrev S8x128 : Shape := ⟨2, ![8, 128]⟩
abbrev S1x512 : Shape := ⟨2, ![1, 512]⟩
abbrev S512x1 : Shape := ⟨2, ![512, 1]⟩
abbrev S1x1x128 : Shape := ⟨3, ![1, 1, 128]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 20
  | .vmem => 10
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x1, .f32⟩
  | .hbm, ⟨3, _⟩ => ⟨S16384x5x5, .f32⟩
  | .hbm, ⟨4, _⟩ => ⟨S16384x5x1, .f32⟩
  | .hbm, ⟨5, _⟩ => ⟨S16384x1x5, .f32⟩
  | .hbm, ⟨6, _⟩ => ⟨S16384x1x1, .f32⟩
  | .hbm, ⟨7, _⟩ => ⟨S128x128x5, .f32⟩
  | .hbm, ⟨8, _⟩ => ⟨S128x5x128, .f32⟩
  | .hbm, ⟨9, _⟩ => ⟨S128x128x5, .f32⟩
  | .hbm, ⟨10, _⟩ => ⟨S128x5x128, .f32⟩
  | .hbm, ⟨11, _⟩ => ⟨S128x128x5x5, .f32⟩
  | .hbm, ⟨12, _⟩ => ⟨S128x5x5x128, .f32⟩
  | .hbm, ⟨13, _⟩ => ⟨S128x128x5, .f32⟩
  | .hbm, ⟨14, _⟩ => ⟨S128x5x128, .f32⟩
  | .hbm, ⟨15, _⟩ => ⟨S128x128x5, .f32⟩
  | .hbm, ⟨16, _⟩ => ⟨S128x5x128, .f32⟩
  | .hbm, ⟨17, _⟩ => ⟨S128x128, .f32⟩
  | .hbm, ⟨18, _⟩ => ⟨S128x2048, .f32⟩
  | .hbm, ⟨19, _⟩ => ⟨S2048x128, .f32⟩
  | .local _ .vmem, ⟨0, _⟩ => ⟨S128x512, .f32⟩
  | .local _ .vmem, ⟨1, _⟩ => ⟨S128x512, .f32⟩
  | .local _ .vmem, ⟨2, _⟩ => ⟨S128x5x128, .f32⟩
  | .local _ .vmem, ⟨3, _⟩ => ⟨S128x5x128, .f32⟩
  | .local _ .vmem, ⟨4, _⟩ => ⟨S128x5x5x128, .f32⟩
  | .local _ .vmem, ⟨5, _⟩ => ⟨S128x5x128, .f32⟩
  | .local _ .vmem, ⟨6, _⟩ => ⟨S128x5x128, .f32⟩
  | .local _ .vmem, ⟨7, _⟩ => ⟨S128x128, .f32⟩
  | .local _ .vmem, ⟨8, _⟩ => ⟨S512x128, .f32⟩
  | .local _ .vmem, ⟨9, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v4 : BitVec 32 := Scalar.muli arg9 c8_i32
  v4
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v4 : BitVec 32 := Scalar.muli arg9 c8_i32
  let v5 : BitVec 32 := v4
  let v6 : Index := Scalar.indexCast v5
  let c0_2 : Index := 0#32
  ![v6.toNat, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let c8_i32 : BitVec 32 := 8#32
  let v4 : BitVec 32 := Scalar.muli arg9 c8_i32
  let v5 : BitVec 32 := v4
  let v9 : Index := Scalar.indexCast v5
  let c0_3 : Index := 0#32
  let c0_4 : Index := 0#32
  ![v9.toNat, 0, 0]
def k0_off3 (k0_t1 : Fin k0_t1_loop.trips) : Fin 4 → Nat :=
  let c0_i32 : BitVec 32 := 0#32
  let c1_i32 : BitVec 32 := 1#32
  let arg9 : BitVec 32 := Scf.iv c0_i32 c1_i32 k0_t1
  let c8_i32 : BitVec 32 := 8#32
  let v4 : BitVec 32 := Scalar.muli arg9 c8_i32
  let v5 : BitVec 32 := v4
  let v15 : Index := Scalar.indexCast v5
  let c0_7 : Index := 0#32
  let c0_8 : Index := 0#32
  let c0_9 : Index := 0#32
  ![v15.toNat, 0, 0, 0]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v4 : BitVec 32 := Scalar.muli arg9 c8_i32
  let v5 : BitVec 32 := v4
  let v24 : Index := Scalar.indexCast v5
  let c0_14 : Index := 0#32
  ![v24.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x5x5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x5x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16384x5x1_S128x128x5 : S16384x5x1.ShapeCasts S128x128x5
  transposes_S128x128x5_S128x5x128_0_2_1 : S128x128x5.Transposes [0, 2, 1] S128x5x128
  shapeCasts_S16384x5x5_S128x128x5x5 : S16384x5x5.ShapeCasts S128x128x5x5
  transposes_S128x128x5x5_S128x5x5x128_0_2_3_1 : S128x128x5x5.Transposes [0, 2, 3, 1] S128x5x5x128
  shapeCasts_S16384x1x5_S128x128x5 : S16384x1x5.ShapeCasts S128x128x5
  shapeCasts_S16384x1x1_S128x128 : S16384x1x1.ShapeCasts S128x128
  transposes_S2048x128_S128x2048_1_0 : S2048x128.Transposes [1, 0] S128x2048
  h_S8x512 : 0 < S8x512.numel
  shapeCasts_S8x512_S8x512 : S8x512.ShapeCasts S8x512
  h_S8x5x128 : 0 < S8x5x128.numel
  shapeCasts_S8x5x128_S8x5x128 : S8x5x128.ShapeCasts S8x5x128
  h_S8x5x5x128 : 0 < S8x5x5x128.numel
  shapeCasts_S8x5x5x128_S8x5x5x128 : S8x5x5x128.ShapeCasts S8x5x5x128
  h_S8x128 : 0 < S8x128.numel
  shapeCasts_S8x128_S8x128 : S8x128.ShapeCasts S8x128
  slices_S8x512_o0_0_S1x512 : S8x512.Slices ![0, 0] S1x512
  transposes_S1x512_p1_0_S512x1 : S1x512.Transposes [1, 0] S512x1
  slices_S8x5x128_o0_0_0_S1x1x128 : S8x5x128.Slices ![0, 0, 0] S1x1x128
  shapeCasts_S1x1x128_S128 : S1x1x128.ShapeCasts S128
  shapeCasts_S128_S1x128 : S128.ShapeCasts S1x128
  broadcasts_S1x128_S512x128 : S1x128.Broadcasts S512x128
  broadcasts_S512x1_S512x128 : S512x1.Broadcasts S512x128
  slices_S8x5x128_o0_1_0_S1x1x128 : S8x5x128.Slices ![0, 1, 0] S1x1x128
  slices_S8x5x128_o0_2_0_S1x1x128 : S8x5x128.Slices ![0, 2, 0] S1x1x128
  slices_S8x5x128_o0_3_0_S1x1x128 : S8x5x128.Slices ![0, 3, 0] S1x1x128
  slices_S8x5x128_o0_4_0_S1x1x128 : S8x5x128.Slices ![0, 4, 0] S1x1x128
  slices_S8x5x5x128_o0_0_0_0_S1x1x1x128 : S8x5x5x128.Slices ![0, 0, 0, 0] S1x1x1x128
  shapeCasts_S1x1x1x128_S128 : S1x1x1x128.ShapeCasts S128
  slices_S8x5x5x128_o0_0_1_0_S1x1x1x128 : S8x5x5x128.Slices ![0, 0, 1, 0] S1x1x1x128
  slices_S8x5x5x128_o0_0_2_0_S1x1x1x128 : S8x5x5x128.Slices ![0, 0, 2, 0] S1x1x1x128
  slices_S8x5x5x128_o0_0_3_0_S1x1x1x128 : S8x5x5x128.Slices ![0, 0, 3, 0] S1x1x1x128
  slices_S8x5x5x128_o0_0_4_0_S1x1x1x128 : S8x5x5x128.Slices ![0, 0, 4, 0] S1x1x1x128
  slices_S8x5x5x128_o0_1_0_0_S1x1x1x128 : S8x5x5x128.Slices ![0, 1, 0, 0] S1x1x1x128
  slices_S8x5x5x128_o0_1_1_0_S1x1x1x128 : S8x5x5x128.Slices ![0, 1, 1, 0] S1x1x1x128
  slices_S8x5x5x128_o0_1_2_0_S1x1x1x128 : S8x5x5x128.Slices ![0, 1, 2, 0] S1x1x1x128
  slices_S8x5x5x128_o0_1_3_0_S1x1x1x128 : S8x5x5x128.Slices ![0, 1, 3, 0] S1x1x1x128
  slices_S8x5x5x128_o0_1_4_0_S1x1x1x128 : S8x5x5x128.Slices ![0, 1, 4, 0] S1x1x1x128
  slices_S8x5x5x128_o0_2_0_0_S1x1x1x128 : S8x5x5x128.Slices ![0, 2, 0, 0] S1x1x1x128
  slices_S8x5x5x128_o0_2_1_0_S1x1x1x128 : S8x5x5x128.Slices ![0, 2, 1, 0] S1x1x1x128
  slices_S8x5x5x128_o0_2_2_0_S1x1x1x128 : S8x5x5x128.Slices ![0, 2, 2, 0] S1x1x1x128
  slices_S8x5x5x128_o0_2_3_0_S1x1x1x128 : S8x5x5x128.Slices ![0, 2, 3, 0] S1x1x1x128
  slices_S8x5x5x128_o0_2_4_0_S1x1x1x128 : S8x5x5x128.Slices ![0, 2, 4, 0] S1x1x1x128
  slices_S8x5x5x128_o0_3_0_0_S1x1x1x128 : S8x5x5x128.Slices ![0, 3, 0, 0] S1x1x1x128
  slices_S8x5x5x128_o0_3_1_0_S1x1x1x128 : S8x5x5x128.Slices ![0, 3, 1, 0] S1x1x1x128
  slices_S8x5x5x128_o0_3_2_0_S1x1x1x128 : S8x5x5x128.Slices ![0, 3, 2, 0] S1x1x1x128
  slices_S8x5x5x128_o0_3_3_0_S1x1x1x128 : S8x5x5x128.Slices ![0, 3, 3, 0] S1x1x1x128
  slices_S8x5x5x128_o0_3_4_0_S1x1x1x128 : S8x5x5x128.Slices ![0, 3, 4, 0] S1x1x1x128
  slices_S8x5x5x128_o0_4_0_0_S1x1x1x128 : S8x5x5x128.Slices ![0, 4, 0, 0] S1x1x1x128
  slices_S8x5x5x128_o0_4_1_0_S1x1x1x128 : S8x5x5x128.Slices ![0, 4, 1, 0] S1x1x1x128
  slices_S8x5x5x128_o0_4_2_0_S1x1x1x128 : S8x5x5x128.Slices ![0, 4, 2, 0] S1x1x1x128
  slices_S8x5x5x128_o0_4_3_0_S1x1x1x128 : S8x5x5x128.Slices ![0, 4, 3, 0] S1x1x1x128
  slices_S8x5x5x128_o0_4_4_0_S1x1x1x128 : S8x5x5x128.Slices ![0, 4, 4, 0] S1x1x1x128
  slices_S8x128_o0_0_S1x128 : S8x128.Slices ![0, 0] S1x128
  shapeCasts_S1x128_S128 : S1x128.ShapeCasts S128
  slices_S8x512_o1_0_S1x512 : S8x512.Slices ![1, 0] S1x512
  slices_S8x5x128_o1_0_0_S1x1x128 : S8x5x128.Slices ![1, 0, 0] S1x1x128
  slices_S8x5x128_o1_1_0_S1x1x128 : S8x5x128.Slices ![1, 1, 0] S1x1x128
  slices_S8x5x128_o1_2_0_S1x1x128 : S8x5x128.Slices ![1, 2, 0] S1x1x128
  slices_S8x5x128_o1_3_0_S1x1x128 : S8x5x128.Slices ![1, 3, 0] S1x1x128
  slices_S8x5x128_o1_4_0_S1x1x128 : S8x5x128.Slices ![1, 4, 0] S1x1x128
  slices_S8x5x5x128_o1_0_0_0_S1x1x1x128 : S8x5x5x128.Slices ![1, 0, 0, 0] S1x1x1x128
  slices_S8x5x5x128_o1_0_1_0_S1x1x1x128 : S8x5x5x128.Slices ![1, 0, 1, 0] S1x1x1x128
  slices_S8x5x5x128_o1_0_2_0_S1x1x1x128 : S8x5x5x128.Slices ![1, 0, 2, 0] S1x1x1x128
  slices_S8x5x5x128_o1_0_3_0_S1x1x1x128 : S8x5x5x128.Slices ![1, 0, 3, 0] S1x1x1x128
  slices_S8x5x5x128_o1_0_4_0_S1x1x1x128 : S8x5x5x128.Slices ![1, 0, 4, 0] S1x1x1x128
  slices_S8x5x5x128_o1_1_0_0_S1x1x1x128 : S8x5x5x128.Slices ![1, 1, 0, 0] S1x1x1x128
  slices_S8x5x5x128_o1_1_1_0_S1x1x1x128 : S8x5x5x128.Slices ![1, 1, 1, 0] S1x1x1x128
  slices_S8x5x5x128_o1_1_2_0_S1x1x1x128 : S8x5x5x128.Slices ![1, 1, 2, 0] S1x1x1x128
  slices_S8x5x5x128_o1_1_3_0_S1x1x1x128 : S8x5x5x128.Slices ![1, 1, 3, 0] S1x1x1x128
  slices_S8x5x5x128_o1_1_4_0_S1x1x1x128 : S8x5x5x128.Slices ![1, 1, 4, 0] S1x1x1x128
  slices_S8x5x5x128_o1_2_0_0_S1x1x1x128 : S8x5x5x128.Slices ![1, 2, 0, 0] S1x1x1x128
  slices_S8x5x5x128_o1_2_1_0_S1x1x1x128 : S8x5x5x128.Slices ![1, 2, 1, 0] S1x1x1x128
  slices_S8x5x5x128_o1_2_2_0_S1x1x1x128 : S8x5x5x128.Slices ![1, 2, 2, 0] S1x1x1x128
  slices_S8x5x5x128_o1_2_3_0_S1x1x1x128 : S8x5x5x128.Slices ![1, 2, 3, 0] S1x1x1x128
  slices_S8x5x5x128_o1_2_4_0_S1x1x1x128 : S8x5x5x128.Slices ![1, 2, 4, 0] S1x1x1x128
  slices_S8x5x5x128_o1_3_0_0_S1x1x1x128 : S8x5x5x128.Slices ![1, 3, 0, 0] S1x1x1x128
  slices_S8x5x5x128_o1_3_1_0_S1x1x1x128 : S8x5x5x128.Slices ![1, 3, 1, 0] S1x1x1x128
  slices_S8x5x5x128_o1_3_2_0_S1x1x1x128 : S8x5x5x128.Slices ![1, 3, 2, 0] S1x1x1x128
  slices_S8x5x5x128_o1_3_3_0_S1x1x1x128 : S8x5x5x128.Slices ![1, 3, 3, 0] S1x1x1x128
  slices_S8x5x5x128_o1_3_4_0_S1x1x1x128 : S8x5x5x128.Slices ![1, 3, 4, 0] S1x1x1x128
  slices_S8x5x5x128_o1_4_0_0_S1x1x1x128 : S8x5x5x128.Slices ![1, 4, 0, 0] S1x1x1x128
  slices_S8x5x5x128_o1_4_1_0_S1x1x1x128 : S8x5x5x128.Slices ![1, 4, 1, 0] S1x1x1x128
  slices_S8x5x5x128_o1_4_2_0_S1x1x1x128 : S8x5x5x128.Slices ![1, 4, 2, 0] S1x1x1x128
  slices_S8x5x5x128_o1_4_3_0_S1x1x1x128 : S8x5x5x128.Slices ![1, 4, 3, 0] S1x1x1x128
  slices_S8x5x5x128_o1_4_4_0_S1x1x1x128 : S8x5x5x128.Slices ![1, 4, 4, 0] S1x1x1x128
  slices_S8x128_o1_0_S1x128 : S8x128.Slices ![1, 0] S1x128
  slices_S8x512_o2_0_S1x512 : S8x512.Slices ![2, 0] S1x512
  slices_S8x5x128_o2_0_0_S1x1x128 : S8x5x128.Slices ![2, 0, 0] S1x1x128
  slices_S8x5x128_o2_1_0_S1x1x128 : S8x5x128.Slices ![2, 1, 0] S1x1x128
  slices_S8x5x128_o2_2_0_S1x1x128 : S8x5x128.Slices ![2, 2, 0] S1x1x128
  slices_S8x5x128_o2_3_0_S1x1x128 : S8x5x128.Slices ![2, 3, 0] S1x1x128
  slices_S8x5x128_o2_4_0_S1x1x128 : S8x5x128.Slices ![2, 4, 0] S1x1x128
  slices_S8x5x5x128_o2_0_0_0_S1x1x1x128 : S8x5x5x128.Slices ![2, 0, 0, 0] S1x1x1x128
  slices_S8x5x5x128_o2_0_1_0_S1x1x1x128 : S8x5x5x128.Slices ![2, 0, 1, 0] S1x1x1x128
  slices_S8x5x5x128_o2_0_2_0_S1x1x1x128 : S8x5x5x128.Slices ![2, 0, 2, 0] S1x1x1x128
  slices_S8x5x5x128_o2_0_3_0_S1x1x1x128 : S8x5x5x128.Slices ![2, 0, 3, 0] S1x1x1x128
  slices_S8x5x5x128_o2_0_4_0_S1x1x1x128 : S8x5x5x128.Slices ![2, 0, 4, 0] S1x1x1x128
  slices_S8x5x5x128_o2_1_0_0_S1x1x1x128 : S8x5x5x128.Slices ![2, 1, 0, 0] S1x1x1x128
  slices_S8x5x5x128_o2_1_1_0_S1x1x1x128 : S8x5x5x128.Slices ![2, 1, 1, 0] S1x1x1x128
  slices_S8x5x5x128_o2_1_2_0_S1x1x1x128 : S8x5x5x128.Slices ![2, 1, 2, 0] S1x1x1x128
  slices_S8x5x5x128_o2_1_3_0_S1x1x1x128 : S8x5x5x128.Slices ![2, 1, 3, 0] S1x1x1x128
  slices_S8x5x5x128_o2_1_4_0_S1x1x1x128 : S8x5x5x128.Slices ![2, 1, 4, 0] S1x1x1x128
  slices_S8x5x5x128_o2_2_0_0_S1x1x1x128 : S8x5x5x128.Slices ![2, 2, 0, 0] S1x1x1x128
  slices_S8x5x5x128_o2_2_1_0_S1x1x1x128 : S8x5x5x128.Slices ![2, 2, 1, 0] S1x1x1x128
  slices_S8x5x5x128_o2_2_2_0_S1x1x1x128 : S8x5x5x128.Slices ![2, 2, 2, 0] S1x1x1x128
  slices_S8x5x5x128_o2_2_3_0_S1x1x1x128 : S8x5x5x128.Slices ![2, 2, 3, 0] S1x1x1x128
  slices_S8x5x5x128_o2_2_4_0_S1x1x1x128 : S8x5x5x128.Slices ![2, 2, 4, 0] S1x1x1x128
  slices_S8x5x5x128_o2_3_0_0_S1x1x1x128 : S8x5x5x128.Slices ![2, 3, 0, 0] S1x1x1x128
  slices_S8x5x5x128_o2_3_1_0_S1x1x1x128 : S8x5x5x128.Slices ![2, 3, 1, 0] S1x1x1x128
  slices_S8x5x5x128_o2_3_2_0_S1x1x1x128 : S8x5x5x128.Slices ![2, 3, 2, 0] S1x1x1x128
  slices_S8x5x5x128_o2_3_3_0_S1x1x1x128 : S8x5x5x128.Slices ![2, 3, 3, 0] S1x1x1x128
  slices_S8x5x5x128_o2_3_4_0_S1x1x1x128 : S8x5x5x128.Slices ![2, 3, 4, 0] S1x1x1x128
  slices_S8x5x5x128_o2_4_0_0_S1x1x1x128 : S8x5x5x128.Slices ![2, 4, 0, 0] S1x1x1x128
  slices_S8x5x5x128_o2_4_1_0_S1x1x1x128 : S8x5x5x128.Slices ![2, 4, 1, 0] S1x1x1x128
  slices_S8x5x5x128_o2_4_2_0_S1x1x1x128 : S8x5x5x128.Slices ![2, 4, 2, 0] S1x1x1x128
  slices_S8x5x5x128_o2_4_3_0_S1x1x1x128 : S8x5x5x128.Slices ![2, 4, 3, 0] S1x1x1x128
  slices_S8x5x5x128_o2_4_4_0_S1x1x1x128 : S8x5x5x128.Slices ![2, 4, 4, 0] S1x1x1x128
  slices_S8x128_o2_0_S1x128 : S8x128.Slices ![2, 0] S1x128
  slices_S8x512_o3_0_S1x512 : S8x512.Slices ![3, 0] S1x512
  slices_S8x5x128_o3_0_0_S1x1x128 : S8x5x128.Slices ![3, 0, 0] S1x1x128
  slices_S8x5x128_o3_1_0_S1x1x128 : S8x5x128.Slices ![3, 1, 0] S1x1x128
  slices_S8x5x128_o3_2_0_S1x1x128 : S8x5x128.Slices ![3, 2, 0] S1x1x128
  slices_S8x5x128_o3_3_0_S1x1x128 : S8x5x128.Slices ![3, 3, 0] S1x1x128
  slices_S8x5x128_o3_4_0_S1x1x128 : S8x5x128.Slices ![3, 4, 0] S1x1x128
  slices_S8x5x5x128_o3_0_0_0_S1x1x1x128 : S8x5x5x128.Slices ![3, 0, 0, 0] S1x1x1x128
  slices_S8x5x5x128_o3_0_1_0_S1x1x1x128 : S8x5x5x128.Slices ![3, 0, 1, 0] S1x1x1x128
  slices_S8x5x5x128_o3_0_2_0_S1x1x1x128 : S8x5x5x128.Slices ![3, 0, 2, 0] S1x1x1x128
  slices_S8x5x5x128_o3_0_3_0_S1x1x1x128 : S8x5x5x128.Slices ![3, 0, 3, 0] S1x1x1x128
  slices_S8x5x5x128_o3_0_4_0_S1x1x1x128 : S8x5x5x128.Slices ![3, 0, 4, 0] S1x1x1x128
  slices_S8x5x5x128_o3_1_0_0_S1x1x1x128 : S8x5x5x128.Slices ![3, 1, 0, 0] S1x1x1x128
  slices_S8x5x5x128_o3_1_1_0_S1x1x1x128 : S8x5x5x128.Slices ![3, 1, 1, 0] S1x1x1x128
  slices_S8x5x5x128_o3_1_2_0_S1x1x1x128 : S8x5x5x128.Slices ![3, 1, 2, 0] S1x1x1x128
  slices_S8x5x5x128_o3_1_3_0_S1x1x1x128 : S8x5x5x128.Slices ![3, 1, 3, 0] S1x1x1x128
  slices_S8x5x5x128_o3_1_4_0_S1x1x1x128 : S8x5x5x128.Slices ![3, 1, 4, 0] S1x1x1x128
  slices_S8x5x5x128_o3_2_0_0_S1x1x1x128 : S8x5x5x128.Slices ![3, 2, 0, 0] S1x1x1x128
  slices_S8x5x5x128_o3_2_1_0_S1x1x1x128 : S8x5x5x128.Slices ![3, 2, 1, 0] S1x1x1x128
  slices_S8x5x5x128_o3_2_2_0_S1x1x1x128 : S8x5x5x128.Slices ![3, 2, 2, 0] S1x1x1x128
  slices_S8x5x5x128_o3_2_3_0_S1x1x1x128 : S8x5x5x128.Slices ![3, 2, 3, 0] S1x1x1x128
  slices_S8x5x5x128_o3_2_4_0_S1x1x1x128 : S8x5x5x128.Slices ![3, 2, 4, 0] S1x1x1x128
  slices_S8x5x5x128_o3_3_0_0_S1x1x1x128 : S8x5x5x128.Slices ![3, 3, 0, 0] S1x1x1x128
  slices_S8x5x5x128_o3_3_1_0_S1x1x1x128 : S8x5x5x128.Slices ![3, 3, 1, 0] S1x1x1x128
  slices_S8x5x5x128_o3_3_2_0_S1x1x1x128 : S8x5x5x128.Slices ![3, 3, 2, 0] S1x1x1x128
  slices_S8x5x5x128_o3_3_3_0_S1x1x1x128 : S8x5x5x128.Slices ![3, 3, 3, 0] S1x1x1x128
  slices_S8x5x5x128_o3_3_4_0_S1x1x1x128 : S8x5x5x128.Slices ![3, 3, 4, 0] S1x1x1x128
  slices_S8x5x5x128_o3_4_0_0_S1x1x1x128 : S8x5x5x128.Slices ![3, 4, 0, 0] S1x1x1x128
  slices_S8x5x5x128_o3_4_1_0_S1x1x1x128 : S8x5x5x128.Slices ![3, 4, 1, 0] S1x1x1x128
  slices_S8x5x5x128_o3_4_2_0_S1x1x1x128 : S8x5x5x128.Slices ![3, 4, 2, 0] S1x1x1x128
  slices_S8x5x5x128_o3_4_3_0_S1x1x1x128 : S8x5x5x128.Slices ![3, 4, 3, 0] S1x1x1x128
  slices_S8x5x5x128_o3_4_4_0_S1x1x1x128 : S8x5x5x128.Slices ![3, 4, 4, 0] S1x1x1x128
  slices_S8x128_o3_0_S1x128 : S8x128.Slices ![3, 0] S1x128
  slices_S8x512_o4_0_S1x512 : S8x512.Slices ![4, 0] S1x512
  slices_S8x5x128_o4_0_0_S1x1x128 : S8x5x128.Slices ![4, 0, 0] S1x1x128
  slices_S8x5x128_o4_1_0_S1x1x128 : S8x5x128.Slices ![4, 1, 0] S1x1x128
  slices_S8x5x128_o4_2_0_S1x1x128 : S8x5x128.Slices ![4, 2, 0] S1x1x128
  slices_S8x5x128_o4_3_0_S1x1x128 : S8x5x128.Slices ![4, 3, 0] S1x1x128
  slices_S8x5x128_o4_4_0_S1x1x128 : S8x5x128.Slices ![4, 4, 0] S1x1x128
  slices_S8x5x5x128_o4_0_0_0_S1x1x1x128 : S8x5x5x128.Slices ![4, 0, 0, 0] S1x1x1x128
  slices_S8x5x5x128_o4_0_1_0_S1x1x1x128 : S8x5x5x128.Slices ![4, 0, 1, 0] S1x1x1x128
  slices_S8x5x5x128_o4_0_2_0_S1x1x1x128 : S8x5x5x128.Slices ![4, 0, 2, 0] S1x1x1x128
  slices_S8x5x5x128_o4_0_3_0_S1x1x1x128 : S8x5x5x128.Slices ![4, 0, 3, 0] S1x1x1x128
  slices_S8x5x5x128_o4_0_4_0_S1x1x1x128 : S8x5x5x128.Slices ![4, 0, 4, 0] S1x1x1x128
  slices_S8x5x5x128_o4_1_0_0_S1x1x1x128 : S8x5x5x128.Slices ![4, 1, 0, 0] S1x1x1x128
  slices_S8x5x5x128_o4_1_1_0_S1x1x1x128 : S8x5x5x128.Slices ![4, 1, 1, 0] S1x1x1x128
  slices_S8x5x5x128_o4_1_2_0_S1x1x1x128 : S8x5x5x128.Slices ![4, 1, 2, 0] S1x1x1x128
  slices_S8x5x5x128_o4_1_3_0_S1x1x1x128 : S8x5x5x128.Slices ![4, 1, 3, 0] S1x1x1x128
  slices_S8x5x5x128_o4_1_4_0_S1x1x1x128 : S8x5x5x128.Slices ![4, 1, 4, 0] S1x1x1x128
  slices_S8x5x5x128_o4_2_0_0_S1x1x1x128 : S8x5x5x128.Slices ![4, 2, 0, 0] S1x1x1x128
  slices_S8x5x5x128_o4_2_1_0_S1x1x1x128 : S8x5x5x128.Slices ![4, 2, 1, 0] S1x1x1x128
  slices_S8x5x5x128_o4_2_2_0_S1x1x1x128 : S8x5x5x128.Slices ![4, 2, 2, 0] S1x1x1x128
  slices_S8x5x5x128_o4_2_3_0_S1x1x1x128 : S8x5x5x128.Slices ![4, 2, 3, 0] S1x1x1x128
  slices_S8x5x5x128_o4_2_4_0_S1x1x1x128 : S8x5x5x128.Slices ![4, 2, 4, 0] S1x1x1x128
  slices_S8x5x5x128_o4_3_0_0_S1x1x1x128 : S8x5x5x128.Slices ![4, 3, 0, 0] S1x1x1x128
  slices_S8x5x5x128_o4_3_1_0_S1x1x1x128 : S8x5x5x128.Slices ![4, 3, 1, 0] S1x1x1x128
  slices_S8x5x5x128_o4_3_2_0_S1x1x1x128 : S8x5x5x128.Slices ![4, 3, 2, 0] S1x1x1x128
  slices_S8x5x5x128_o4_3_3_0_S1x1x1x128 : S8x5x5x128.Slices ![4, 3, 3, 0] S1x1x1x128
  slices_S8x5x5x128_o4_3_4_0_S1x1x1x128 : S8x5x5x128.Slices ![4, 3, 4, 0] S1x1x1x128
  slices_S8x5x5x128_o4_4_0_0_S1x1x1x128 : S8x5x5x128.Slices ![4, 4, 0, 0] S1x1x1x128
  slices_S8x5x5x128_o4_4_1_0_S1x1x1x128 : S8x5x5x128.Slices ![4, 4, 1, 0] S1x1x1x128
  slices_S8x5x5x128_o4_4_2_0_S1x1x1x128 : S8x5x5x128.Slices ![4, 4, 2, 0] S1x1x1x128
  slices_S8x5x5x128_o4_4_3_0_S1x1x1x128 : S8x5x5x128.Slices ![4, 4, 3, 0] S1x1x1x128
  slices_S8x5x5x128_o4_4_4_0_S1x1x1x128 : S8x5x5x128.Slices ![4, 4, 4, 0] S1x1x1x128
  slices_S8x128_o4_0_S1x128 : S8x128.Slices ![4, 0] S1x128
  slices_S8x512_o5_0_S1x512 : S8x512.Slices ![5, 0] S1x512
  slices_S8x5x128_o5_0_0_S1x1x128 : S8x5x128.Slices ![5, 0, 0] S1x1x128
  slices_S8x5x128_o5_1_0_S1x1x128 : S8x5x128.Slices ![5, 1, 0] S1x1x128
  slices_S8x5x128_o5_2_0_S1x1x128 : S8x5x128.Slices ![5, 2, 0] S1x1x128
  slices_S8x5x128_o5_3_0_S1x1x128 : S8x5x128.Slices ![5, 3, 0] S1x1x128
  slices_S8x5x128_o5_4_0_S1x1x128 : S8x5x128.Slices ![5, 4, 0] S1x1x128
  slices_S8x5x5x128_o5_0_0_0_S1x1x1x128 : S8x5x5x128.Slices ![5, 0, 0, 0] S1x1x1x128
  slices_S8x5x5x128_o5_0_1_0_S1x1x1x128 : S8x5x5x128.Slices ![5, 0, 1, 0] S1x1x1x128
  slices_S8x5x5x128_o5_0_2_0_S1x1x1x128 : S8x5x5x128.Slices ![5, 0, 2, 0] S1x1x1x128
  slices_S8x5x5x128_o5_0_3_0_S1x1x1x128 : S8x5x5x128.Slices ![5, 0, 3, 0] S1x1x1x128
  slices_S8x5x5x128_o5_0_4_0_S1x1x1x128 : S8x5x5x128.Slices ![5, 0, 4, 0] S1x1x1x128
  slices_S8x5x5x128_o5_1_0_0_S1x1x1x128 : S8x5x5x128.Slices ![5, 1, 0, 0] S1x1x1x128
  slices_S8x5x5x128_o5_1_1_0_S1x1x1x128 : S8x5x5x128.Slices ![5, 1, 1, 0] S1x1x1x128
  slices_S8x5x5x128_o5_1_2_0_S1x1x1x128 : S8x5x5x128.Slices ![5, 1, 2, 0] S1x1x1x128
  slices_S8x5x5x128_o5_1_3_0_S1x1x1x128 : S8x5x5x128.Slices ![5, 1, 3, 0] S1x1x1x128
  slices_S8x5x5x128_o5_1_4_0_S1x1x1x128 : S8x5x5x128.Slices ![5, 1, 4, 0] S1x1x1x128
  slices_S8x5x5x128_o5_2_0_0_S1x1x1x128 : S8x5x5x128.Slices ![5, 2, 0, 0] S1x1x1x128
  slices_S8x5x5x128_o5_2_1_0_S1x1x1x128 : S8x5x5x128.Slices ![5, 2, 1, 0] S1x1x1x128
  slices_S8x5x5x128_o5_2_2_0_S1x1x1x128 : S8x5x5x128.Slices ![5, 2, 2, 0] S1x1x1x128
  slices_S8x5x5x128_o5_2_3_0_S1x1x1x128 : S8x5x5x128.Slices ![5, 2, 3, 0] S1x1x1x128
  slices_S8x5x5x128_o5_2_4_0_S1x1x1x128 : S8x5x5x128.Slices ![5, 2, 4, 0] S1x1x1x128
  slices_S8x5x5x128_o5_3_0_0_S1x1x1x128 : S8x5x5x128.Slices ![5, 3, 0, 0] S1x1x1x128
  slices_S8x5x5x128_o5_3_1_0_S1x1x1x128 : S8x5x5x128.Slices ![5, 3, 1, 0] S1x1x1x128
  slices_S8x5x5x128_o5_3_2_0_S1x1x1x128 : S8x5x5x128.Slices ![5, 3, 2, 0] S1x1x1x128
  slices_S8x5x5x128_o5_3_3_0_S1x1x1x128 : S8x5x5x128.Slices ![5, 3, 3, 0] S1x1x1x128
  slices_S8x5x5x128_o5_3_4_0_S1x1x1x128 : S8x5x5x128.Slices ![5, 3, 4, 0] S1x1x1x128
  slices_S8x5x5x128_o5_4_0_0_S1x1x1x128 : S8x5x5x128.Slices ![5, 4, 0, 0] S1x1x1x128
  slices_S8x5x5x128_o5_4_1_0_S1x1x1x128 : S8x5x5x128.Slices ![5, 4, 1, 0] S1x1x1x128
  slices_S8x5x5x128_o5_4_2_0_S1x1x1x128 : S8x5x5x128.Slices ![5, 4, 2, 0] S1x1x1x128
  slices_S8x5x5x128_o5_4_3_0_S1x1x1x128 : S8x5x5x128.Slices ![5, 4, 3, 0] S1x1x1x128
  slices_S8x5x5x128_o5_4_4_0_S1x1x1x128 : S8x5x5x128.Slices ![5, 4, 4, 0] S1x1x1x128
  slices_S8x128_o5_0_S1x128 : S8x128.Slices ![5, 0] S1x128
  slices_S8x512_o6_0_S1x512 : S8x512.Slices ![6, 0] S1x512
  slices_S8x5x128_o6_0_0_S1x1x128 : S8x5x128.Slices ![6, 0, 0] S1x1x128
  slices_S8x5x128_o6_1_0_S1x1x128 : S8x5x128.Slices ![6, 1, 0] S1x1x128
  slices_S8x5x128_o6_2_0_S1x1x128 : S8x5x128.Slices ![6, 2, 0] S1x1x128
  slices_S8x5x128_o6_3_0_S1x1x128 : S8x5x128.Slices ![6, 3, 0] S1x1x128
  slices_S8x5x128_o6_4_0_S1x1x128 : S8x5x128.Slices ![6, 4, 0] S1x1x128
  slices_S8x5x5x128_o6_0_0_0_S1x1x1x128 : S8x5x5x128.Slices ![6, 0, 0, 0] S1x1x1x128
  slices_S8x5x5x128_o6_0_1_0_S1x1x1x128 : S8x5x5x128.Slices ![6, 0, 1, 0] S1x1x1x128
  slices_S8x5x5x128_o6_0_2_0_S1x1x1x128 : S8x5x5x128.Slices ![6, 0, 2, 0] S1x1x1x128
  slices_S8x5x5x128_o6_0_3_0_S1x1x1x128 : S8x5x5x128.Slices ![6, 0, 3, 0] S1x1x1x128
  slices_S8x5x5x128_o6_0_4_0_S1x1x1x128 : S8x5x5x128.Slices ![6, 0, 4, 0] S1x1x1x128
  slices_S8x5x5x128_o6_1_0_0_S1x1x1x128 : S8x5x5x128.Slices ![6, 1, 0, 0] S1x1x1x128
  slices_S8x5x5x128_o6_1_1_0_S1x1x1x128 : S8x5x5x128.Slices ![6, 1, 1, 0] S1x1x1x128
  slices_S8x5x5x128_o6_1_2_0_S1x1x1x128 : S8x5x5x128.Slices ![6, 1, 2, 0] S1x1x1x128
  slices_S8x5x5x128_o6_1_3_0_S1x1x1x128 : S8x5x5x128.Slices ![6, 1, 3, 0] S1x1x1x128
  slices_S8x5x5x128_o6_1_4_0_S1x1x1x128 : S8x5x5x128.Slices ![6, 1, 4, 0] S1x1x1x128
  slices_S8x5x5x128_o6_2_0_0_S1x1x1x128 : S8x5x5x128.Slices ![6, 2, 0, 0] S1x1x1x128
  slices_S8x5x5x128_o6_2_1_0_S1x1x1x128 : S8x5x5x128.Slices ![6, 2, 1, 0] S1x1x1x128
  slices_S8x5x5x128_o6_2_2_0_S1x1x1x128 : S8x5x5x128.Slices ![6, 2, 2, 0] S1x1x1x128
  slices_S8x5x5x128_o6_2_3_0_S1x1x1x128 : S8x5x5x128.Slices ![6, 2, 3, 0] S1x1x1x128
  slices_S8x5x5x128_o6_2_4_0_S1x1x1x128 : S8x5x5x128.Slices ![6, 2, 4, 0] S1x1x1x128
  slices_S8x5x5x128_o6_3_0_0_S1x1x1x128 : S8x5x5x128.Slices ![6, 3, 0, 0] S1x1x1x128
  slices_S8x5x5x128_o6_3_1_0_S1x1x1x128 : S8x5x5x128.Slices ![6, 3, 1, 0] S1x1x1x128
  slices_S8x5x5x128_o6_3_2_0_S1x1x1x128 : S8x5x5x128.Slices ![6, 3, 2, 0] S1x1x1x128
  slices_S8x5x5x128_o6_3_3_0_S1x1x1x128 : S8x5x5x128.Slices ![6, 3, 3, 0] S1x1x1x128
  slices_S8x5x5x128_o6_3_4_0_S1x1x1x128 : S8x5x5x128.Slices ![6, 3, 4, 0] S1x1x1x128
  slices_S8x5x5x128_o6_4_0_0_S1x1x1x128 : S8x5x5x128.Slices ![6, 4, 0, 0] S1x1x1x128
  slices_S8x5x5x128_o6_4_1_0_S1x1x1x128 : S8x5x5x128.Slices ![6, 4, 1, 0] S1x1x1x128
  slices_S8x5x5x128_o6_4_2_0_S1x1x1x128 : S8x5x5x128.Slices ![6, 4, 2, 0] S1x1x1x128
  slices_S8x5x5x128_o6_4_3_0_S1x1x1x128 : S8x5x5x128.Slices ![6, 4, 3, 0] S1x1x1x128
  slices_S8x5x5x128_o6_4_4_0_S1x1x1x128 : S8x5x5x128.Slices ![6, 4, 4, 0] S1x1x1x128
  slices_S8x128_o6_0_S1x128 : S8x128.Slices ![6, 0] S1x128
  slices_S8x512_o7_0_S1x512 : S8x512.Slices ![7, 0] S1x512
  slices_S8x5x128_o7_0_0_S1x1x128 : S8x5x128.Slices ![7, 0, 0] S1x1x128
  slices_S8x5x128_o7_1_0_S1x1x128 : S8x5x128.Slices ![7, 1, 0] S1x1x128
  slices_S8x5x128_o7_2_0_S1x1x128 : S8x5x128.Slices ![7, 2, 0] S1x1x128
  slices_S8x5x128_o7_3_0_S1x1x128 : S8x5x128.Slices ![7, 3, 0] S1x1x128
  slices_S8x5x128_o7_4_0_S1x1x128 : S8x5x128.Slices ![7, 4, 0] S1x1x128
  slices_S8x5x5x128_o7_0_0_0_S1x1x1x128 : S8x5x5x128.Slices ![7, 0, 0, 0] S1x1x1x128
  slices_S8x5x5x128_o7_0_1_0_S1x1x1x128 : S8x5x5x128.Slices ![7, 0, 1, 0] S1x1x1x128
  slices_S8x5x5x128_o7_0_2_0_S1x1x1x128 : S8x5x5x128.Slices ![7, 0, 2, 0] S1x1x1x128
  slices_S8x5x5x128_o7_0_3_0_S1x1x1x128 : S8x5x5x128.Slices ![7, 0, 3, 0] S1x1x1x128
  slices_S8x5x5x128_o7_0_4_0_S1x1x1x128 : S8x5x5x128.Slices ![7, 0, 4, 0] S1x1x1x128
  slices_S8x5x5x128_o7_1_0_0_S1x1x1x128 : S8x5x5x128.Slices ![7, 1, 0, 0] S1x1x1x128
  slices_S8x5x5x128_o7_1_1_0_S1x1x1x128 : S8x5x5x128.Slices ![7, 1, 1, 0] S1x1x1x128
  slices_S8x5x5x128_o7_1_2_0_S1x1x1x128 : S8x5x5x128.Slices ![7, 1, 2, 0] S1x1x1x128
  slices_S8x5x5x128_o7_1_3_0_S1x1x1x128 : S8x5x5x128.Slices ![7, 1, 3, 0] S1x1x1x128
  slices_S8x5x5x128_o7_1_4_0_S1x1x1x128 : S8x5x5x128.Slices ![7, 1, 4, 0] S1x1x1x128
  slices_S8x5x5x128_o7_2_0_0_S1x1x1x128 : S8x5x5x128.Slices ![7, 2, 0, 0] S1x1x1x128
  slices_S8x5x5x128_o7_2_1_0_S1x1x1x128 : S8x5x5x128.Slices ![7, 2, 1, 0] S1x1x1x128
  slices_S8x5x5x128_o7_2_2_0_S1x1x1x128 : S8x5x5x128.Slices ![7, 2, 2, 0] S1x1x1x128
  slices_S8x5x5x128_o7_2_3_0_S1x1x1x128 : S8x5x5x128.Slices ![7, 2, 3, 0] S1x1x1x128
  slices_S8x5x5x128_o7_2_4_0_S1x1x1x128 : S8x5x5x128.Slices ![7, 2, 4, 0] S1x1x1x128
  slices_S8x5x5x128_o7_3_0_0_S1x1x1x128 : S8x5x5x128.Slices ![7, 3, 0, 0] S1x1x1x128
  slices_S8x5x5x128_o7_3_1_0_S1x1x1x128 : S8x5x5x128.Slices ![7, 3, 1, 0] S1x1x1x128
  slices_S8x5x5x128_o7_3_2_0_S1x1x1x128 : S8x5x5x128.Slices ![7, 3, 2, 0] S1x1x1x128
  slices_S8x5x5x128_o7_3_3_0_S1x1x1x128 : S8x5x5x128.Slices ![7, 3, 3, 0] S1x1x1x128
  slices_S8x5x5x128_o7_3_4_0_S1x1x1x128 : S8x5x5x128.Slices ![7, 3, 4, 0] S1x1x1x128
  slices_S8x5x5x128_o7_4_0_0_S1x1x1x128 : S8x5x5x128.Slices ![7, 4, 0, 0] S1x1x1x128
  slices_S8x5x5x128_o7_4_1_0_S1x1x1x128 : S8x5x5x128.Slices ![7, 4, 1, 0] S1x1x1x128
  slices_S8x5x5x128_o7_4_2_0_S1x1x1x128 : S8x5x5x128.Slices ![7, 4, 2, 0] S1x1x1x128
  slices_S8x5x5x128_o7_4_3_0_S1x1x1x128 : S8x5x5x128.Slices ![7, 4, 3, 0] S1x1x1x128
  slices_S8x5x5x128_o7_4_4_0_S1x1x1x128 : S8x5x5x128.Slices ![7, 4, 4, 0] S1x1x1x128
  slices_S8x128_o7_0_S1x128 : S8x128.Slices ![7, 0] S1x128
  inb_S512x128_S512x128_0_0 : ∀ a, (![0, 0] : Fin 2 → Nat) a + S512x128.size a ≤ S512x128.size a
  h_S512x128 : 0 < S512x128.numel
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x512.size a ≤ S128x512.size a
  k0_off2_inb : ∀ k0_t1 : Fin k0_t1_loop.trips, ∀ a, (k0_off2 k0_t1) a + S8x5x128.size a ≤ S128x5x128.size a
  k0_off3_inb : ∀ k0_t1 : Fin k0_t1_loop.trips, ∀ a, (k0_off3 k0_t1) a + S8x5x5x128.size a ≤ S128x5x5x128.size a
  k0_off4_inb : ∀ k0_t1 : Fin k0_t1_loop.trips, ∀ a, (k0_off4 k0_t1) a + S8x128.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x2048.size a
  hwx0_0 : ∀ i : grid0.Coords, EltTy.bits .f32 = 32 ∨ (Rect.block (s := S128x2048) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x5x128.size a ≤ S128x5x128.size a
  hwx0_1 : ∀ i : grid0.Coords, EltTy.bits .f32 = 32 ∨ (Rect.block (s := S128x5x128) S128x5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x5x128.size a ≤ S128x5x128.size a
  hwx0_2 : ∀ i : grid0.Coords, EltTy.bits .f32 = 32 ∨ (Rect.block (s := S128x5x128) S128x5x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x5x5x128.size a ≤ S128x5x5x128.size a
  hwx0_3 : ∀ i : grid0.Coords, EltTy.bits .f32 = 32 ∨ (Rect.block (s := S128x5x5x128) S128x5x5x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x5x128.size a ≤ S128x5x128.size a
  hwx0_4 : ∀ i : grid0.Coords, EltTy.bits .f32 = 32 ∨ (Rect.block (s := S128x5x128) S128x5x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x5x128.size a ≤ S128x5x128.size a
  hwx0_5 : ∀ i : grid0.Coords, EltTy.bits .f32 = 32 ∨ (Rect.block (s := S128x5x128) S128x5x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S2048x128.size a
  hwx0_7 : ∀ i : grid0.Coords, EltTy.bits .f32 = 32 ∨ (Rect.block (s := S2048x128) S512x128.size (cc0_transform_7 i) (hinb0_7 i)).WholeWords (EltTy.packing .f32)

variable [Facts₀]

abbrev win0_0 : Pipeline.Window sig grid0 :=
  Pipeline.Window.ofSpec (Memref.whole main_v11) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x5x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x5x5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x2048 : Shape := ⟨2, ![128, 2048]⟩
abbrev S128x128x2048 : Shape := ⟨3, ![128, 128, 2048]⟩
abbrev S16384x2048 : Shape := ⟨2, ![16384, 2048]⟩
abbrev S16384x1x2048 : Shape := ⟨3, ![16384, 1, 2048]⟩
abbrev S16384x5x2048 : Shape := ⟨3, ![16384, 5, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x1, .f32⟩
  | .hbm, ⟨3, _⟩ => ⟨S16384x5x5, .f32⟩
  | .hbm, ⟨4, _⟩ => ⟨S16384x5x1, .f32⟩
  | .hbm, ⟨5, _⟩ => ⟨S16384x1x5, .f32⟩
  | .hbm, ⟨6, _⟩ => ⟨S16384x1x1, .f32⟩
  | .hbm, ⟨7, _⟩ => ⟨S128x2048, .f32⟩
  | .hbm, ⟨8, _⟩ => ⟨S128x128x2048, .f32⟩
  | .hbm, ⟨9, _⟩ => ⟨S16384x2048, .f32⟩
  | .hbm, ⟨10, _⟩ => ⟨S16384x1x2048, .f32⟩
  | .hbm, ⟨11, _⟩ => ⟨S16384x5x2048, .f32⟩
  | .hbm, ⟨12, _⟩ => ⟨S16384x5x2048, .f32⟩
  | .hbm, ⟨13, _⟩ => ⟨S16384x5x2048, .f32⟩
  | .hbm, ⟨14, _⟩ => ⟨S_, .f32⟩
  | .hbm, ⟨15, _⟩ => ⟨S16384x5x2048, .f32⟩
  | .hbm, ⟨16, _⟩ => ⟨S16384x5x2048, .f32⟩
  | .hbm, ⟨17, _⟩ => ⟨S16384x5x2048, .f32⟩
  | .hbm, ⟨18, _⟩ => ⟨S16384x5x2048, .f32⟩
  | .hbm, ⟨19, _⟩ => ⟨S16384x5x2048, .f32⟩
  | .hbm, ⟨20, _⟩ => ⟨S_, .f32⟩
  | .hbm, ⟨21, _⟩ => ⟨S16384x5x2048, .f32⟩
  | .hbm, ⟨22, _⟩ => ⟨S16384x5x2048, .f32⟩
  | .hbm, ⟨23, _⟩ => ⟨S16384x1x2048, .f32⟩
  | .hbm, ⟨24, _⟩ => ⟨S16384x1x2048, .f32⟩
  | .hbm, ⟨25, _⟩ => ⟨S16384x1x2048, .f32⟩
  | .hbm, ⟨26, _⟩ => ⟨S128x128x2048, .f32⟩
  | .hbm, ⟨27, _⟩ => ⟨S_, .f32⟩
  | .hbm, ⟨28, _⟩ => ⟨S128x2048, .f32⟩
  | .hbm, ⟨29, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  transposes_S2048x128_S128x2048_1_0 : S2048x128.Transposes [1, 0] S128x2048
  bcast_S128x2048_S128x128x2048_0_2 : S128x2048.BroadcastsInDim S128x128x2048 (![0, 2] : Fin 2 → Fin S128x128x2048.rank)
  shapeCasts_S128x128x2048_S16384x2048 : S128x128x2048.ShapeCasts S16384x2048
  bcast_S16384x2048_S16384x1x2048_0_2 : S16384x2048.BroadcastsInDim S16384x1x2048 (![0, 2] : Fin 2 → Fin S16384x1x2048.rank)
  bcast_S16384x5x1_S16384x5x2048_0_1_2 : S16384x5x1.BroadcastsInDim S16384x5x2048 (![0, 1, 2] : Fin 3 → Fin S16384x5x2048.rank)
  bcast_S_S16384x5x2048 : S_.BroadcastsInDim S16384x5x2048 (![] : Fin 0 → Fin S16384x5x2048.rank)
  bcast_S16384x1x1_S16384x1x2048_0_1_2 : S16384x1x1.BroadcastsInDim S16384x1x2048 (![0, 1, 2] : Fin 3 → Fin S16384x1x2048.rank)
  shapeCasts_S16384x1x2048_S128x128x2048 : S16384x1x2048.ShapeCasts S128x128x2048
  reducesTo_S128x128x2048_S128x2048_d0 : S128x128x2048.ReducesTo [0] S128x2048
  h_S_ : 0 < S_.numel
  transposes_S128x2048_S2048x128_1_0 : S128x2048.Transposes [1, 0] S2048x128
  dot_S16384x5x1_S16384x1x2048_S16384x5x2048_2_1_1_2_0_0_wf : DotDims.WF S16384x5x1 S16384x1x2048 S16384x5x2048 [2] [1] [1] [2] [0] [0]
  dot_S16384x5x5_S16384x5x2048_S16384x5x2048_2_1_1_2_0_0_wf : DotDims.WF S16384x5x5 S16384x5x2048 S16384x5x2048 [2] [1] [1] [2] [0] [0]
  dot_S16384x1x5_S16384x5x2048_S16384x1x2048_2_1_1_2_0_0_wf : DotDims.WF S16384x1x5 S16384x5x2048 S16384x1x2048 [2] [1] [1] [2] [0] [0]

variable [Facts₀]

def dot_S16384x5x1_S16384x1x2048_S16384x5x2048_2_1_1_2_0_0 : DotDims S16384x5x1 S16384x1x2048 S16384x5x2048 where
  lhsContracting := [2]
  rhsContracting := [1]
  lhsNonContracting := [1]
  rhsNonContracting := [2]
  lhsBatch := [0]
  rhsBatch := [0]
  wf := dot_S16384x5x1_S16384x1x2048_S16384x5x2048_2_1_1_2_0_0_wf
def dot_S16384x5x5_S16384x5x2048_S16384x5x2048_2_1_1_2_0_0 : DotDims S16384x5x5 S16384x5x2048 S16384x5x2048 where
  lhsContracting := [2]
  rhsContracting := [1]
  lhsNonContracting := [1]
  rhsNonContracting := [2]
  lhsBatch := [0]
  rhsBatch := [0]
  wf := dot_S16384x5x5_S16384x5x2048_S16384x5x2048_2_1_1_2_0_0_wf
def dot_S16384x1x5_S16384x5x2048_S16384x1x2048_2_1_1_2_0_0 : DotDims S16384x1x5 S16384x5x2048 S16384x1x2048 where
  lhsContracting := [2]
  rhsContracting := [1]
  lhsNonContracting := [1]
  rhsNonContracting := [2]
  lhsBatch := [0]
  rhsBatch := [0]
  wf := dot_S16384x1x5_S16384x5x2048_S16384x1x2048_2_1_1_2_0_0_wf

class Facts : Prop extends Facts₀ where

variable [Facts]
-- ==== Proof.LibSliceRows.lean ====
/-
  One row of a small array, cut out and spread over a matrix, read at an index.

  A vector program picks row `(o₀, o₁)` of an `[n, a, b]` array by a unit-size slice `[1, 1, b]`, flattens it to
  `[b]`, views it as the one-row matrix `[1, b]` and spreads it over `m` rows. At `(p, q)` the result is the
  array's entry `(o₀, o₁, q)`, whatever `p`. The same holds one rank up (`[n, a, a', b]`, row `(o₀, o₁, o₂)`) and one rank
  down (`[n, b]`, row `o₀`). Dually, row `o₀` of an `[n, w]` array cut out as `[1, w]`, transposed to the column `[w, 1]`
  and spread over `b` columns reads, at `(p, q)`, the array's entry `(o₀, p)`, whatever `q`.
  Each statement is over any element type: only the positions matter.
-/
import Idealize.ShloMosaic.Lib.Pipeline.Value
import Idealize.ShloMosaic.Lib.ValueIdx
import Idealize.ShloMosaic.Lib.ValueLayout

noncomputable section

namespace Cert.LibSliceRows

open Idealize.ShloMosaic Idealize.ShloMosaic.ValueIdx

variable {α : Type}

/-! ## The offsets of a unit-size slice lie inside the array -/

theorem slice3_lt0 {n a b o0 o1 o2 : ℕ} (h : (⟨3, ![n, a, b]⟩ : Shape).Slices ![o0, o1, o2] ⟨3, ![1, 1, b]⟩) : o0 < n :=
  h.2 (0 : Fin 3)
theorem slice3_lt1 {n a b o0 o1 o2 : ℕ} (h : (⟨3, ![n, a, b]⟩ : Shape).Slices ![o0, o1, o2] ⟨3, ![1, 1, b]⟩) : o1 < a :=
  h.2 (1 : Fin 3)
theorem slice4_lt0 {n a a' b o0 o1 o2 o3 : ℕ}
    (h : (⟨4, ![n, a, a', b]⟩ : Shape).Slices ![o0, o1, o2, o3] ⟨4, ![1, 1, 1, b]⟩) : o0 < n := h.2 (0 : Fin 4)
theorem slice4_lt1 {n a a' b o0 o1 o2 o3 : ℕ}
    (h : (⟨4, ![n, a, a', b]⟩ : Shape).Slices ![o0, o1, o2, o3] ⟨4, ![1, 1, 1, b]⟩) : o1 < a := h.2 (1 : Fin 4)
theorem slice4_lt2 {n a a' b o0 o1 o2 o3 : ℕ}
    (h : (⟨4, ![n, a, a', b]⟩ : Shape).Slices ![o0, o1, o2, o3] ⟨4, ![1, 1, 1, b]⟩) : o2 < a' := h.2 (2 : Fin 4)
theorem slice2_lt0 {n b o0 o1 : ℕ} (h : (⟨2, ![n, b]⟩ : Shape).Slices ![o0, o1] ⟨2, ![1, b]⟩) : o0 < n :=
  h.2 (0 : Fin 2)

/-! ## The unit-size slices, read at an index -/

/-- Row `(o₀, o₁)` of an `[n, a, b]` array as a `[1, 1, b]` slice. -/
theorem slice3_row_apply {n a b o0 o1 : ℕ} (v : (⟨3, ![n, a, b]⟩ : Shape).Idx → α)
    (h : (⟨3, ![n, a, b]⟩ : Shape).Slices ![o0, o1, 0] ⟨3, ![1, 1, b]⟩) (u0 u1 : Fin 1) (q : Fin b) :
    extractStridedSlice ⟨3, ![1, 1, b]⟩ ![o0, o1, 0] v h (ix3 u0 u1 q)
      = v (ix3 ⟨o0, slice3_lt0 h⟩ ⟨o1, slice3_lt1 h⟩ q) :=
  extractStridedSlice_apply _ v h _ _ fun c => match c with
    | ⟨0, _⟩ => by show o0 = o0 + u0.val; omega
    | ⟨1, _⟩ => by show o1 = o1 + u1.val; omega
    | ⟨2, _⟩ => by show q.val = 0 + q.val; omega

/-- Row `(o₀, o₁, o₂)` of an `[n, a, a', b]` array as a `[1, 1, 1, b]` slice. -/
theorem slice4_row_apply {n a a' b o0 o1 o2 : ℕ} (v : (⟨4, ![n, a, a', b]⟩ : Shape).Idx → α)
    (h : (⟨4, ![n, a, a', b]⟩ : Shape).Slices ![o0, o1, o2, 0] ⟨4, ![1, 1, 1, b]⟩) (u0 u1 u2 : Fin 1) (q : Fin b) :
    extractStridedSlice ⟨4, ![1, 1, 1, b]⟩ ![o0, o1, o2, 0] v h (ix4 u0 u1 u2 q)
      = v (ix4 ⟨o0, slice4_lt0 h⟩ ⟨o1, slice4_lt1 h⟩ ⟨o2, slice4_lt2 h⟩ q) :=
  extractStridedSlice_apply _ v h _ _ fun c => match c with
    | ⟨0, _⟩ => by show o0 = o0 + u0.val; omega
    | ⟨1, _⟩ => by show o1 = o1 + u1.val; omega
    | ⟨2, _⟩ => by show o2 = o2 + u2.val; omega
    | ⟨3, _⟩ => by show q.val = 0 + q.val; omega

/-- Row `o₀` of an `[n, b]` array as a `[1, b]` slice. -/
theorem slice2_row_apply {n b o0 : ℕ} (v : (⟨2, ![n, b]⟩ : Shape).Idx → α)
    (h : (⟨2, ![n, b]⟩ : Shape).Slices ![o0, 0] ⟨2, ![1, b]⟩) (u0 : Fin 1) (q : Fin b) :
    extractStridedSlice ⟨2, ![1, b]⟩ ![o0, 0] v h (ix2 u0 q) = v (ix2 ⟨o0, slice2_lt0 h⟩ q) :=
  extractStridedSlice_apply _ v h _ _ fun c => match c with
    | ⟨0, _⟩ => by show o0 = o0 + u0.val; omega
    | ⟨1, _⟩ => by show q.val = 0 + q.val; omega

/-! ## Unit axes dropped by a shape cast -/

/-- A `[1, 1, b]` array flattened to `[b]` reads, at `q`, the operand at `(0, 0, q)`. -/
theorem shapeCast_11b_b_apply {b : ℕ} (x : (⟨3, ![1, 1, b]⟩ : Shape).Idx → α)
    (h : (⟨3, ![1, 1, b]⟩ : Shape).ShapeCasts ⟨1, ![b]⟩) (q : Fin b) :
    shapeCast ⟨1, ![b]⟩ x h (ix1 q) = x (ix3 (0 : Fin 1) (0 : Fin 1) q) :=
  shapeCast_apply x h _ _ (by
    rw [Shape.rowMajor_val_three, Shape.rowMajor_val_one]
    show (0 * 1 + 0) * b + q.val = q.val
    simp only [Nat.zero_mul, Nat.zero_add])

/-- A `[1, 1, 1, b]` array flattened to `[b]` reads, at `q`, the operand at `(0, 0, 0, q)`. -/
theorem shapeCast_111b_b_apply {b : ℕ} (x : (⟨4, ![1, 1, 1, b]⟩ : Shape).Idx → α)
    (h : (⟨4, ![1, 1, 1, b]⟩ : Shape).ShapeCasts ⟨1, ![b]⟩) (q : Fin b) :
    shapeCast ⟨1, ![b]⟩ x h (ix1 q) = x (ix4 (0 : Fin 1) (0 : Fin 1) (0 : Fin 1) q) :=
  shapeCast_apply x h _ _ (by
    rw [Shape.rowMajor_val_four, Shape.rowMajor_val_one]
    show ((0 * 1 + 0) * 1 + 0) * b + q.val = q.val
    simp only [Nat.zero_mul, Nat.zero_add])

/-! ## One column spread over many -/

/-- An `[a, 1]` column spread to `[a, b]` reads, at `(p, q)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The rows and the column as the vector program spells them -/

/-- Row `(o₀, o₁)` of an `[n, a, b]` array — sliced, flattened, viewed as one row, spread over `m` rows — at `(p, q)`. -/
theorem row3_apply {n a b m o0 o1 : ℕ} (v : (⟨3, ![n, a, b]⟩ : Shape).Idx → α)
    (hs : (⟨3, ![n, a, b]⟩ : Shape).Slices ![o0, o1, 0] ⟨3, ![1, 1, b]⟩)
    (hc1 : (⟨3, ![1, 1, b]⟩ : Shape).ShapeCasts ⟨1, ![b]⟩) (hc2 : (⟨1, ![b]⟩ : Shape).ShapeCasts ⟨2, ![1, b]⟩)
    (hb : (⟨2, ![1, b]⟩ : Shape).Broadcasts ⟨2, ![m, b]⟩) (p : Fin m) (q : Fin b) :
    broadcastTo ⟨2, ![m, b]⟩ (shapeCast ⟨2, ![1, b]⟩ (shapeCast ⟨1, ![b]⟩
        (extractStridedSlice ⟨3, ![1, 1, b]⟩ ![o0, o1, 0] v hs) hc1) hc2) hb (ix2 p q)
      = v (ix3 ⟨o0, slice3_lt0 hs⟩ ⟨o1, slice3_lt1 hs⟩ q) := by
  rw [broadcastTo_1b_ab_apply, shapeCast_a_1a_apply, shapeCast_11b_b_apply, slice3_row_apply]

/-- Row `(o₀, o₁, o₂)` of an `[n, a, a', b]` array, spelt the same way, at `(p, q)`. -/
theorem row4_apply {n a a' b m o0 o1 o2 : ℕ} (v : (⟨4, ![n, a, a', b]⟩ : Shape).Idx → α)
    (hs : (⟨4, ![n, a, a', b]⟩ : Shape).Slices ![o0, o1, o2, 0] ⟨4, ![1, 1, 1, b]⟩)
    (hc1 : (⟨4, ![1, 1, 1, b]⟩ : Shape).ShapeCasts ⟨1, ![b]⟩) (hc2 : (⟨1, ![b]⟩ : Shape).ShapeCasts ⟨2, ![1, b]⟩)
    (hb : (⟨2, ![1, b]⟩ : Shape).Broadcasts ⟨2, ![m, b]⟩) (p : Fin m) (q : Fin b) :
    broadcastTo ⟨2, ![m, b]⟩ (shapeCast ⟨2, ![1, b]⟩ (shapeCast ⟨1, ![b]⟩
        (extractStridedSlice ⟨4, ![1, 1, 1, b]⟩ ![o0, o1, o2, 0] v hs) hc1) hc2) hb (ix2 p q)
      = v (ix4 ⟨o0, slice4_lt0 hs⟩ ⟨o1, slice4_lt1 hs⟩ ⟨o2, slice4_lt2 hs⟩ q) := by
  rw [broadcastTo_1b_ab_apply, shapeCast_a_1a_apply, shapeCast_111b_b_apply, slice4_row_apply]

/-- Row `o₀` of an `[n, b]` array, spelt the same way, at `(p, q)`. -/
theorem row2_apply {n b m o0 : ℕ} (v : (⟨2, ![n, b]⟩ : Shape).Idx → α)
    (hs : (⟨2, ![n, b]⟩ : Shape).Slices ![o0, 0] ⟨2, ![1, b]⟩)
    (hc1 : (⟨2, ![1, b]⟩ : Shape).ShapeCasts ⟨1, ![b]⟩) (hc2 : (⟨1, ![b]⟩ : Shape).ShapeCasts ⟨2, ![1, b]⟩)
    (hb : (⟨2, ![1, b]⟩ : Shape).Broadcasts ⟨2, ![m, b]⟩) (p : Fin m) (q : Fin b) :
    broadcastTo ⟨2, ![m, b]⟩ (shapeCast ⟨2, ![1, b]⟩ (shapeCast ⟨1, ![b]⟩
        (extractStridedSlice ⟨2, ![1, b]⟩ ![o0, 0] v hs) hc1) hc2) hb (ix2 p q)
      = v (ix2 ⟨o0, slice2_lt0 hs⟩ q) := by
  rw [broadcastTo_1b_ab_apply, shapeCast_a_1a_apply, shapeCast_1a_a_apply, slice2_row_apply]

/-- Row `o₀` of an `[n, w]` array — sliced, transposed to a column, spread over `b` columns — at `(p, q)`. -/
theorem col_apply {n w b o0 : ℕ} (v : (⟨2, ![n, w]⟩ : Shape).Idx → α)
    (hs : (⟨2, ![n, w]⟩ : Shape).Slices ![o0, 0] ⟨2, ![1, w]⟩)
    (perm : List (Fin (⟨2, ![1, w]⟩ : Shape).rank)) (hp : perm = [1, 0])
    (ht : (⟨2, ![1, w]⟩ : Shape).Transposes perm ⟨2, ![w, 1]⟩)
    (hb : (⟨2, ![w, 1]⟩ : Shape).Broadcasts ⟨2, ![w, b]⟩) (p : Fin w) (q : Fin b) :
    broadcastTo ⟨2, ![w, b]⟩ (transpose ⟨2, ![w, 1]⟩ perm
        (extractStridedSlice ⟨2, ![1, w]⟩ ![o0, 0] v hs) ht) hb (ix2 p q)
      = v (ix2 ⟨o0, slice2_lt0 hs⟩ p) := by
  subst hp
  rw [broadcastTo_a1_ab_apply, transpose_ix2_apply, slice2_row_apply]

end Cert.LibSliceRows

end
-- ==== Proof.Spec.lean ====
/-
  The function both programs compute, stated once over the argument arrays.

  There are 128 · 128 small networks 1 → 5 → 5 → 1, one per pair (input feature `f`, output feature `o`), network
  `f · 128 + o` having weights `w0, b0` (1 → 5), `w1, b1` (5 → 5), `w2, b2` (5 → 1) and a rectifier after each of
  the first two layers. On a batch row `r` network `(f, o)` is fed the single number `x[r, f]`, and the result at
  `(r, o)` is the sum over the 128 input features `f` of what the networks `(f, o)` return.

  `net` is one network on the extended reals, its two inner sums as sums over `Fin 5`; `netK` is the same network
  with every sum accumulated term by term from a starting value `z` — the order in which a vector program adds the
  products — and `netK_zero` says that from `z = 0` the two agree: only `0 + a = a` and the splitting of a sum over five
  indices into its five terms are used, so nothing is asked of the numbers (they may be infinite).
-/
import Idealize.ShloMosaic.PureOps.Ideal
import Idealize.ShloMosaic.Lib.ValueIdx

noncomputable section

namespace Cert.Spec

open Idealize.ShloMosaic Idealize.ShloMosaic.ValueIdx
open scoped BigOperators

/-! ## One network -/

/-- One network 1 → 5 → 5 → 1 with rectifiers, on the extended reals. -/
def net (x : EReal) (w0 b0 : Fin 5 → EReal) (w1 : Fin 5 → Fin 5 → EReal) (b1 w2 : Fin 5 → EReal) (b2 : EReal) : EReal :=
  (∑ k, w2 k * max ((∑ j, w1 k j * max (w0 j * x + b0 j) 0) + b1 k) 0) + b2

/-- The first hidden layer's unit `j`, rectified against `z`. -/
def hid1 (z x : EReal) (w0 b0 : Fin 5 → EReal) (j : Fin 5) : EReal := max (w0 j * x + b0 j) z

/-- The second hidden layer's unit `k`: the five products added one after the other to `z`, then the bias, rectified
    against `z`. -/
def hid2 (z x : EReal) (w0 b0 : Fin 5 → EReal) (w1 : Fin 5 → Fin 5 → EReal) (b1 : Fin 5 → EReal) (k : Fin 5) : EReal :=
  max (z + w1 k 0 * hid1 z x w0 b0 0 + w1 k 1 * hid1 z x w0 b0 1 + w1 k 2 * hid1 z x w0 b0 2
    + w1 k 3 * hid1 z x w0 b0 3 + w1 k 4 * hid1 z x w0 b0 4 + b1 k) z

/-- The network's output: the five products added one after the other to `z`, then the bias. -/
def netK (z x : EReal) (w0 b0 : Fin 5 → EReal) (w1 : Fin 5 → Fin 5 → EReal) (b1 w2 : Fin 5 → EReal) (b2 : EReal) : EReal :=
  z + w2 0 * hid2 z x w0 b0 w1 b1 0 + w2 1 * hid2 z x w0 b0 w1 b1 1 + w2 2 * hid2 z x w0 b0 w1 b1 2
    + w2 3 * hid2 z x w0 b0 w1 b1 3 + w2 4 * hid2 z x w0 b0 w1 b1 4 + b2

/-- Accumulated from zero, the term-by-term sums are the sums over the five indices. -/
theorem netK_zero (x : EReal) (w0 b0 : Fin 5 → EReal) (w1 : Fin 5 → Fin 5 → EReal) (b1 w2 : Fin 5 → EReal) (b2 : EReal) :
    netK 0 x w0 b0 w1 b1 w2 b2 = net x w0 b0 w1 b1 w2 b2 := by
  simp only [netK, hid2, hid1, net, Fin.sum_univ_five, zero_add]

/-! ## Eight networks added to an accumulator -/

/-- One step of the accumulation: eight consecutive networks' outputs added, one after the other, to `acc`. -/
def step8 (z : EReal) (x : Fin 8 → EReal) (w0 b0 : Fin 8 → Fin 5 → EReal) (w1 : Fin 8 → Fin 5 → Fin 5 → EReal)
    (b1 w2 : Fin 8 → Fin 5 → EReal) (b2 : Fin 8 → EReal) (acc : EReal) : EReal :=
  acc + netK z (x 0) (w0 0) (b0 0) (w1 0) (b1 0) (w2 0) (b2 0) + netK z (x 1) (w0 1) (b0 1) (w1 1) (b1 1) (w2 1) (b2 1)
    + netK z (x 2) (w0 2) (b0 2) (w1 2) (b1 2) (w2 2) (b2 2) + netK z (x 3) (w0 3) (b0 3) (w1 3) (b1 3) (w2 3) (b2 3)
    + netK z (x 4) (w0 4) (b0 4) (w1 4) (b1 4) (w2 4) (b2 4) + netK z (x 5) (w0 5) (b0 5) (w1 5) (b1 5) (w2 5) (b2 5)
    + netK z (x 6) (w0 6) (b0 6) (w1 6) (b1 6) (w2 6) (b2 6) + netK z (x 7) (w0 7) (b0 7) (w1 7) (b1 7) (w2 7) (b2 7)

/-! ## The whole result -/

/-- The index of network `(f, o)` among the 16384. -/
def netIdx (f o : Fin 128) : Fin 16384 := ⟨f.val * 128 + o.val, by have := f.isLt; have := o.isLt; omega⟩

/-- Network `(f, o)` on batch row `r`, from the argument arrays. -/
def netAt (x : (⟨2, ![2048, 128]⟩ : Shape).Idx → EReal) (w0 b0 : (⟨3, ![16384, 5, 1]⟩ : Shape).Idx → EReal)
    (w1 : (⟨3, ![16384, 5, 5]⟩ : Shape).Idx → EReal) (b1 : (⟨3, ![16384, 5, 1]⟩ : Shape).Idx → EReal)
    (w2 : (⟨3, ![16384, 1, 5]⟩ : Shape).Idx → EReal) (b2 : (⟨3, ![16384, 1, 1]⟩ : Shape).Idx → EReal)
    (r : Fin 2048) (o f : Fin 128) : EReal :=
  net (x (ix2 r f)) (fun j => w0 (ix3 (netIdx f o) j 0)) (fun j => b0 (ix3 (netIdx f o) j 0))
    (fun k j => w1 (ix3 (netIdx f o) k j)) (fun k => b1 (ix3 (netIdx f o) k 0))
    (fun k => w2 (ix3 (netIdx f o) 0 k)) (b2 (ix3 (netIdx f o) 0 0))

/-- THE RESULT: at `(r, o)` the sum over the 128 input features of the networks `(f, o)` on row `r`. -/
def G (x : (⟨2, ![2048, 128]⟩ : Shape).Idx → EReal) (w0 b0 : (⟨3, ![16384, 5, 1]⟩ : Shape).Idx → EReal)
    (w1 : (⟨3, ![16384, 5, 5]⟩ : Shape).Idx → EReal) (b1 : (⟨3, ![16384, 5, 1]⟩ : Shape).Idx → EReal)
    (w2 : (⟨3, ![16384, 1, 5]⟩ : Shape).Idx → EReal) (b2 : (⟨3, ![16384, 1, 1]⟩ : Shape).Idx → EReal) :
    (⟨2, ![2048, 128]⟩ : Shape).Idx → EReal :=
  fun i => ∑ f : Fin 128, netAt x w0 b0 w1 b1 w2 b2 (i 0) (i 1) f

end Cert.Spec

end
-- ==== Proof.KTrip.lean ====
/-
  One trip of the kernel's loop, read at an index.

  Trip `k` loads rows `8k … 8k+7` of the seven staged arrays (the chunk of `x` transposed, and the six weight arrays laid out
  with the input feature leading and the output feature last). For each of the eight rows `ii` it spreads row `ii` of the
  `x` chunk down the 512 batch rows and each weight row across them, evaluates the network of that input feature for all
  512 × 128 (batch row, output feature) pairs at once, and adds the result to the accumulator it carries. At the entry
  `(p, q)` that is `Spec.step8`: the eight networks (input features `8k … 8k+7`, output feature `q`) on the number the chunk
  holds at (row `ii`, batch column `p`), added one after the other to the accumulator's entry.
-/
import proofs.«110157_j89584427860005_2_alg».proof.Proof.Gen.KernelIdeal.Loops
import proofs.«110157_j89584427860005_2_alg».proof.Proof.LibSliceRows
import proofs.«110157_j89584427860005_2_alg».proof.Proof.Spec
import Idealize.ShloMosaic.Lib.ValueIdx

set_option maxRecDepth 16384
set_option maxHeartbeats 4000000

noncomputable section

namespace Cert.KernelIdeal.KTrip

open Cert.KernelIdeal Cert.KernelIdeal.Gen
open Idealize.ShloMosaic Idealize.ShloMosaic.TcCoe Idealize.ShloMosaic.ValueIdx
open Idealize.SL Idealize.SL.Sem Cert.LibSliceRows

/-- The zero the kernel's accumulators start from and its rectifiers compare against, as the program spells it. -/
abbrev z0 : EReal := (FloatOps.ofBits (F := Ideal) FTy.f32 0#32 : Ideal .f32)

/-- The chunks trip `k` loads: eight consecutive leading rows of each staged array. -/
abbrev chunkX (arg1 : Memref sig .tc .vmem S128x512 .f32) (X : BufTy.Contents (Elt Ideal) arg1.view.ty) (k : Fin k0_t1_loop.trips) :
    FVec Ideal S8x512 .f32 :=
  View.readAt (Elt Ideal) arg1.view (Rect.unit (s := S128x512) (k0_off1 k) S8x512.size (k0_off1_inb k)).toLoadRect X
abbrev chunk3 (arg : Memref sig .tc .vmem S128x5x128 .f32) (X : BufTy.Contents (Elt Ideal) arg.view.ty) (k : Fin k0_t1_loop.trips) :
    FVec Ideal S8x5x128 .f32 :=
  View.readAt (Elt Ideal) arg.view (Rect.unit (s := S128x5x128) (k0_off2 k) S8x5x128.size (k0_off2_inb k)).toLoadRect X
abbrev chunk4 (arg : Memref sig .tc .vmem S128x5x5x128 .f32) (X : BufTy.Contents (Elt Ideal) arg.view.ty) (k : Fin k0_t1_loop.trips) :
    FVec Ideal S8x5x5x128 .f32 :=
  View.readAt (Elt Ideal) arg.view (Rect.unit (s := S128x5x5x128) (k0_off3 k) S8x5x5x128.size (k0_off3_inb k)).toLoadRect X
abbrev chunk2 (arg : Memref sig .tc .vmem S128x128 .f32) (X : BufTy.Contents (Elt Ideal) arg.view.ty) (k : Fin k0_t1_loop.trips) :
    FVec Ideal S8x128 .f32 :=
  View.readAt (Elt Ideal) arg.view (Rect.unit (s := S128x128) (k0_off4 k) S8x128.size (k0_off4_inb k)).toLoadRect X

/-- WHAT ONE TRIP YIELDS, at `(p, q)`: the carried entry plus the eight networks of the trip's input features. The
    trip's yield is a composition of entrywise sums, products and maxima of spread rows and columns; at `(p, q)` a
    sum, product or maximum is that of the entries, a spread row is its entry `q`, a spread column its entry `p`. -/
theorem tripR_apply (𝒱 : Variants) (c : Dev nD) (bd : Option 𝒱.V) (i : grid0.Coords) (arg1 : Memref sig .tc .vmem S128x512 .f32) (harg1 : arg1.IsWhole) (arg2 : Memref sig .tc .vmem S128x5x128 .f32) (harg2 : arg2.IsWhole) (arg3 : Memref sig .tc .vmem S128x5x128 .f32) (harg3 : arg3.IsWhole) (arg4 : Memref sig .tc .vmem S128x5x5x128 .f32) (harg4 : arg4.IsWhole) (arg5 : Memref sig .tc .vmem S128x5x128 .f32) (harg5 : arg5.IsWhole) (arg6 : Memref sig .tc .vmem S128x5x128 .f32) (harg6 : arg6.IsWhole) (arg7 : Memref sig .tc .vmem S128x128 .f32) (harg7 : arg7.IsWhole) (arg8 : Memref sig .tc .vmem S512x128 .f32) (harg8 : arg8.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin k0_t1_loop.trips) (acc : FVec Ideal S512x128 .f32) (p : Fin 512) (q : Fin 128) :
    tripR_k0_t1 (F := Ideal) 𝒱 c bd i arg1 harg1 arg2 harg2 arg3 harg3 arg4 harg4 arg5 harg5 arg6 harg6 arg7 harg7 arg8 harg8 X_arg1 X_arg2 X_arg3 X_arg4 X_arg5 X_arg6 X_arg7 k acc (ix2 p q)
      = Cert.Spec.step8 z0
          (fun ii => chunkX arg1 X_arg1 k (ix2 ii p))
          (fun ii j => chunk3 arg2 X_arg2 k (ix3 ii j q)) (fun ii j => chunk3 arg3 X_arg3 k (ix3 ii j q))
          (fun ii kk j => chunk4 arg4 X_arg4 k (ix4 ii kk j q)) (fun ii kk => chunk3 arg5 X_arg5 k (ix3 ii kk q))
          (fun ii kk => chunk3 arg6 X_arg6 k (ix3 ii kk q)) (fun ii => chunk2 arg7 X_arg7 k (ix2 ii q))
          (acc (ix2 p q)) := by
  unfold tripR_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, trip_k0_t1.sl.r_125, trip_k0_t1.sl.r_126, trip_k0_t1.sl.r_127, trip_k0_t1.sl.r_128, trip_k0_t1.sl.r_129, trip_k0_t1.sl.r_130, trip_k0_t1.sl.r_131, trip_k0_t1.sl.r_132, trip_k0_t1.sl.r_133, trip_k0_t1.sl.r_134, trip_k0_t1.sl.r_135, trip_k0_t1.sl.r_136, trip_k0_t1.sl.r_137, trip_k0_t1.sl.r_138, trip_k0_t1.sl.r_139, trip_k0_t1.sl.r_140, trip_k0_t1.sl.r_141, trip_k0_t1.sl.r_142, trip_k0_t1.sl.r_143, trip_k0_t1.sl.r_144, trip_k0_t1.sl.r_145, trip_k0_t1.sl.r_146, trip_k0_t1.sl.r_147, trip_k0_t1.sl.r_148, trip_k0_t1.sl.r_149, trip_k0_t1.sl.r_150, trip_k0_t1.sl.r_151, trip_k0_t1.sl.r_152, trip_k0_t1.sl.r_153, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, mulf_apply, addf_apply, maximumf_apply, broadcast_apply, shapeCast_self, row3_apply, row4_apply, row2_apply, col_apply]
  rfl

end Cert.KernelIdeal.KTrip

end
-- ==== Proof.KLoop.lean ====
/-
  The kernel's loop, and the block it stores, read at an index.

  The 16 trips carry one 512 × 128 accumulator, started at zero. Trip `k` adds the networks of the input features
  `8k … 8k+7` (KTrip.lean), reading them from rows `8k … 8k+7` of the staged arrays. So before trip `n` the entry
  `(p, q)` holds the starting value plus the sum over the input features `f < 8n` of network `(f, q)` on the number the
  staged `x` block holds at `(f, p)` — by induction on `n`, each step being one trip. After the last trip that is the sum
  over all 128 input features, and the one store of the body puts it in the output block. The starting value being the
  zero of the extended reals, `0 + a = a` makes each term-by-term sum the sum over its five indices (`Spec.netK_zero`).
-/
import proofs.«110157_j89584427860005_2_alg».proof.Proof.KTrip
import proofs.«110157_j89584427860005_2_alg».proof.Proof.Gen.KernelIdeal.Frame
import Idealize.ShloMosaic.PureOps.Ideal.Laws
import Idealize.ShloMosaic.Lib.Pipeline.Value

set_option maxRecDepth 16384
set_option maxHeartbeats 4000000

noncomputable section

namespace Cert.KernelIdeal.KLoop

open Cert.KernelIdeal Cert.KernelIdeal.Gen Cert.KernelIdeal.KTrip
open Idealize.ShloMosaic Idealize.ShloMosaic.TcCoe Idealize.ShloMosaic.ValueIdx
open Idealize.SL Idealize.SL.Sem
open scoped BigOperators

/-! ## The rows a trip loads -/

/-- The loop makes 16 trips. -/
theorem trips_eq : k0_t1_loop.trips = 16 := by decide +kernel

/-- Input feature number `ii` of trip `k`: `8k + ii`. -/
def feat (k : Fin k0_t1_loop.trips) (ii : Fin 8) : Fin 128 :=
  ⟨8 * k.val + ii.val, by have := Nat.lt_of_lt_of_le k.isLt k0_t1_abs.2.1; have := ii.isLt; omega⟩

/-- Row `ii` of the chunk of the staged `x` block that trip `k` loads is row `8k + ii` of the block. -/
theorem ldX (X : Vec Ideal S128x512 .f32) (k : Fin k0_t1_loop.trips) (ii : Fin 8) (p : Fin 512) :
    View.ld X (Rect.unit (s := S128x512) (k0_off1 k) S8x512.size (k0_off1_inb k)) (ix2 ii p) = X (ix2 (feat k ii) p) := by
  show X _ = X _
  congr 1; funext a; apply Fin.ext
  match a with
  | ⟨0, _⟩ => rw [LoadRect.idx_apply]; simp [Rect.unit, k0_off1_eq k, feat]
  | ⟨1, _⟩ => rw [LoadRect.idx_apply]; simp [Rect.unit, k0_off1_eq k]

/-- The same for a staged weight array with two more axes, -/
theorem ld3 (X : Vec Ideal S128x5x128 .f32) (k : Fin k0_t1_loop.trips) (ii : Fin 8) (j : Fin 5) (q : Fin 128) :
    View.ld X (Rect.unit (s := S128x5x128) (k0_off2 k) S8x5x128.size (k0_off2_inb k)) (ix3 ii j q) = X (ix3 (feat k ii) j q) := by
  show X _ = X _
  congr 1; funext a; apply Fin.ext
  match a with
  | ⟨0, _⟩ => rw [LoadRect.idx_apply]; simp [Rect.unit, k0_off2_eq k, feat]
  | ⟨1, _⟩ => rw [LoadRect.idx_apply]; simp [Rect.unit, k0_off2_eq k]
  | ⟨2, _⟩ => rw [LoadRect.idx_apply]; simp [Rect.unit, k0_off2_eq k]

/-- with three more, -/
theorem ld4 (X : Vec Ideal S128x5x5x128 .f32) (k : Fin k0_t1_loop.trips) (ii : Fin 8) (kk j : Fin 5) (q : Fin 128) :
    View.ld X (Rect.unit (s := S128x5x5x128) (k0_off3 k) S8x5x5x128.size (k0_off3_inb k)) (ix4 ii kk j q)
      = X (ix4 (feat k ii) kk j q) := by
  show X _ = X _
  congr 1; funext a; apply Fin.ext
  match a with
  | ⟨0, _⟩ => rw [LoadRect.idx_apply]; simp [Rect.unit, k0_off3_eq k, feat]
  | ⟨1, _⟩ => rw [LoadRect.idx_apply]; simp [Rect.unit, k0_off3_eq k]
  | ⟨2, _⟩ => rw [LoadRect.idx_apply]; simp [Rect.unit, k0_off3_eq k]
  | ⟨3, _⟩ => rw [LoadRect.idx_apply]; simp [Rect.unit, k0_off3_eq k]

/-- and with one more. -/
theorem ld2 (X : Vec Ideal S128x128 .f32) (k : Fin k0_t1_loop.trips) (ii : Fin 8) (q : Fin 128) :
    View.ld X (Rect.unit (s := S128x128) (k0_off4 k) S8x128.size (k0_off4_inb k)) (ix2 ii q) = X (ix2 (feat k ii) q) := by
  show X _ = X _
  congr 1; funext a; apply Fin.ext
  match a with
  | ⟨0, _⟩ => rw [LoadRect.idx_apply]; simp [Rect.unit, k0_off4_eq k, feat]
  | ⟨1, _⟩ => rw [LoadRect.idx_apply]; simp [Rect.unit, k0_off4_eq k]

/-! ## One trip over the staged blocks -/

/-- Network `(f, q)` on the number the staged `x` block holds at `(f, p)`, its sums accumulated from `z`: the weights are
    read from the staged arrays, whose leading axis is the input feature and whose last axis is the output feature. -/
def netRow (z : EReal) (x0 : Vec Ideal S128x512 .f32) (x1 x2 : Vec Ideal S128x5x128 .f32) (x3 : Vec Ideal S128x5x5x128 .f32) (x4 x5 : Vec Ideal S128x5x128 .f32) (x6 : Vec Ideal S128x128 .f32) (p : Fin 512) (q : Fin 128) (f : Fin 128) : EReal :=
  Cert.Spec.netK z (x0 (ix2 f p)) (fun j => x1 (ix3 f j q)) (fun j => x2 (ix3 f j q)) (fun kk j => x3 (ix4 f kk j q))
    (fun kk => x4 (ix3 f kk q)) (fun kk => x5 (ix3 f kk q)) (x6 (ix2 f q))

/-- ONE TRIP over staging buffers holding the blocks `x0 … x6`: the carried entry plus the networks of the trip's eight
    input features, in order. -/
theorem trip_step (c : Dev nD) (i : grid0.Coords) (arg1 : Memref sig .tc .vmem S128x512 .f32) (harg1 : arg1.IsWhole) (arg2 : Memref sig .tc .vmem S128x5x128 .f32) (harg2 : arg2.IsWhole) (arg3 : Memref sig .tc .vmem S128x5x128 .f32) (harg3 : arg3.IsWhole) (arg4 : Memref sig .tc .vmem S128x5x5x128 .f32) (harg4 : arg4.IsWhole) (arg5 : Memref sig .tc .vmem S128x5x128 .f32) (harg5 : arg5.IsWhole) (arg6 : Memref sig .tc .vmem S128x5x128 .f32) (harg6 : arg6.IsWhole) (arg7 : Memref sig .tc .vmem S128x128 .f32) (harg7 : arg7.IsWhole) (arg8 : Memref sig .tc .vmem S512x128 .f32) (harg8 : arg8.IsWhole) (x0 : Vec Ideal S128x512 .f32) (x1 x2 : Vec Ideal S128x5x128 .f32) (x3 : Vec Ideal S128x5x5x128 .f32) (x4 x5 : Vec Ideal S128x5x128 .f32) (x6 : Vec Ideal S128x128 .f32)
    (k : Fin k0_t1_loop.trips) (acc : FVec Ideal S512x128 .f32) (p : Fin 512) (q : Fin 128) :
    tripR_k0_t1 (F := Ideal) Variants.none c none i arg1 harg1 arg2 harg2 arg3 harg3 arg4 harg4 arg5 harg5 arg6 harg6 arg7 harg7 arg8 harg8 (harg1.unread x0) (harg2.unread x1) (harg3.unread x2) (harg4.unread x3) (harg5.unread x4) (harg6.unread x5) (harg7.unread x6) k acc (ix2 p q)
      = acc (ix2 p q) + netRow z0 x0 x1 x2 x3 x4 x5 x6 p q (feat k 0) + netRow z0 x0 x1 x2 x3 x4 x5 x6 p q (feat k 1)
        + netRow z0 x0 x1 x2 x3 x4 x5 x6 p q (feat k 2) + netRow z0 x0 x1 x2 x3 x4 x5 x6 p q (feat k 3)
        + netRow z0 x0 x1 x2 x3 x4 x5 x6 p q (feat k 4) + netRow z0 x0 x1 x2 x3 x4 x5 x6 p q (feat k 5)
        + netRow z0 x0 x1 x2 x3 x4 x5 x6 p q (feat k 6) + netRow z0 x0 x1 x2 x3 x4 x5 x6 p q (feat k 7) := by
  rw [tripR_apply]
  simp only [chunkX, chunk3, chunk4, chunk2, View.readAt_eq_ld, harg1.read_unread, harg2.read_unread, harg3.read_unread,
    harg4.read_unread, harg5.read_unread, harg6.read_unread, harg7.read_unread]
  rw [show (fun ii : Fin 8 => View.ld x0 (Rect.unit (s := S128x512) (k0_off1 k) S8x512.size (k0_off1_inb k)) (ix2 ii p))
        = fun ii => x0 (ix2 (feat k ii) p) from funext fun ii => ldX x0 k ii p,
    show (fun (ii : Fin 8) (j : Fin 5) => View.ld x1 (Rect.unit (s := S128x5x128) (k0_off2 k) S8x5x128.size (k0_off2_inb k)) (ix3 ii j q))
        = fun ii j => x1 (ix3 (feat k ii) j q) from funext fun ii => funext fun j => ld3 x1 k ii j q,
    show (fun (ii : Fin 8) (j : Fin 5) => View.ld x2 (Rect.unit (s := S128x5x128) (k0_off2 k) S8x5x128.size (k0_off2_inb k)) (ix3 ii j q))
        = fun ii j => x2 (ix3 (feat k ii) j q) from funext fun ii => funext fun j => ld3 x2 k ii j q,
    show (fun (ii : Fin 8) (kk j : Fin 5) => View.ld x3 (Rect.unit (s := S128x5x5x128) (k0_off3 k) S8x5x5x128.size (k0_off3_inb k)) (ix4 ii kk j q))
        = fun ii kk j => x3 (ix4 (feat k ii) kk j q) from funext fun ii => funext fun kk => funext fun j => ld4 x3 k ii kk j q,
    show (fun (ii : Fin 8) (kk : Fin 5) => View.ld x4 (Rect.unit (s := S128x5x128) (k0_off2 k) S8x5x128.size (k0_off2_inb k)) (ix3 ii kk q))
        = fun ii kk => x4 (ix3 (feat k ii) kk q) from funext fun ii => funext fun kk => ld3 x4 k ii kk q,
    show (fun (ii : Fin 8) (kk : Fin 5) => View.ld x5 (Rect.unit (s := S128x5x128) (k0_off2 k) S8x5x128.size (k0_off2_inb k)) (ix3 ii kk q))
        = fun ii kk => x5 (ix3 (feat k ii) kk q) from funext fun ii => funext fun kk => ld3 x5 k ii kk q,
    show (fun ii : Fin 8 => View.ld x6 (Rect.unit (s := S128x128) (k0_off4 k) S8x128.size (k0_off4_inb k)) (ix2 ii q))
        = fun ii => x6 (ix2 (feat k ii) q) from funext fun ii => ld2 x6 k ii q]
  rfl

/-! ## The carried value before each trip -/

/-- Network `(f, q)` for a feature given as a natural number (zero past the last feature). -/
def featN (z : EReal) (x0 : Vec Ideal S128x512 .f32) (x1 x2 : Vec Ideal S128x5x128 .f32) (x3 : Vec Ideal S128x5x5x128 .f32) (x4 x5 : Vec Ideal S128x5x128 .f32) (x6 : Vec Ideal S128x128 .f32) (p : Fin 512) (q : Fin 128) (f : ℕ) : EReal :=
  if h : f < 128 then netRow z x0 x1 x2 x3 x4 x5 x6 p q ⟨f, h⟩ else 0

theorem featN_feat (z : EReal) (x0 : Vec Ideal S128x512 .f32) (x1 x2 : Vec Ideal S128x5x128 .f32) (x3 : Vec Ideal S128x5x5x128 .f32) (x4 x5 : Vec Ideal S128x5x128 .f32) (x6 : Vec Ideal S128x128 .f32) (p : Fin 512) (q : Fin 128)
    (k : Fin k0_t1_loop.trips) (ii : Fin 8) (j : ℕ) (hj : j = ii.val) :
    netRow z x0 x1 x2 x3 x4 x5 x6 p q (feat k ii) = featN z x0 x1 x2 x3 x4 x5 x6 p q (8 * k.val + j) := by
  subst hj
  unfold featN
  rw [dif_pos (show 8 * k.val + ii.val < 128 from (feat k ii).isLt)]
  rfl

/-- BEFORE TRIP `n` the accumulator's entry `(p, q)` is the starting value plus the networks of the features below `8n`. -/
theorem carried_apply (c : Dev nD) (i : grid0.Coords) (arg1 : Memref sig .tc .vmem S128x512 .f32) (harg1 : arg1.IsWhole) (arg2 : Memref sig .tc .vmem S128x5x128 .f32) (harg2 : arg2.IsWhole) (arg3 : Memref sig .tc .vmem S128x5x128 .f32) (harg3 : arg3.IsWhole) (arg4 : Memref sig .tc .vmem S128x5x5x128 .f32) (harg4 : arg4.IsWhole) (arg5 : Memref sig .tc .vmem S128x5x128 .f32) (harg5 : arg5.IsWhole) (arg6 : Memref sig .tc .vmem S128x5x128 .f32) (harg6 : arg6.IsWhole) (arg7 : Memref sig .tc .vmem S128x128 .f32) (harg7 : arg7.IsWhole) (arg8 : Memref sig .tc .vmem S512x128 .f32) (harg8 : arg8.IsWhole) (x0 : Vec Ideal S128x512 .f32) (x1 x2 : Vec Ideal S128x5x128 .f32) (x3 : Vec Ideal S128x5x5x128 .f32) (x4 x5 : Vec Ideal S128x5x128 .f32) (x6 : Vec Ideal S128x128 .f32)
    (p : Fin 512) (q : Fin 128) (n : ℕ) (hn : n ≤ 16) :
    st_k0_t1 (F := Ideal) Variants.none c none i arg1 harg1 arg2 harg2 arg3 harg3 arg4 harg4 arg5 harg5 arg6 harg6 arg7 harg7 arg8 harg8 (harg1.unread x0) (harg2.unread x1) (harg3.unread x2) (harg4.unread x3) (harg5.unread x4) (harg6.unread x5) (harg7.unread x6) k0_pay1 n (ix2 p q)
      = z0 + ∑ f ∈ Finset.range (8 * n), featN z0 x0 x1 x2 x3 x4 x5 x6 p q f := by
  induction n with
  | zero =>
    rw [st_k0_t1_zero]
    simp only [Nat.mul_zero, Finset.range_zero, Finset.sum_empty, add_zero]
    rfl
  | succ n ih =>
    have hk : n < k0_t1_loop.trips := by rw [trips_eq]; omega
    rw [show n + 1 = (⟨n, hk⟩ : Fin k0_t1_loop.trips).val + 1 from rfl, st_k0_t1_succ, trip_step, ih (by omega)]
    rw [featN_feat z0 x0 x1 x2 x3 x4 x5 x6 p q ⟨n, hk⟩ 0 0 rfl, featN_feat z0 x0 x1 x2 x3 x4 x5 x6 p q ⟨n, hk⟩ 1 1 rfl,
      featN_feat z0 x0 x1 x2 x3 x4 x5 x6 p q ⟨n, hk⟩ 2 2 rfl, featN_feat z0 x0 x1 x2 x3 x4 x5 x6 p q ⟨n, hk⟩ 3 3 rfl,
      featN_feat z0 x0 x1 x2 x3 x4 x5 x6 p q ⟨n, hk⟩ 4 4 rfl, featN_feat z0 x0 x1 x2 x3 x4 x5 x6 p q ⟨n, hk⟩ 5 5 rfl,
      featN_feat z0 x0 x1 x2 x3 x4 x5 x6 p q ⟨n, hk⟩ 6 6 rfl, featN_feat z0 x0 x1 x2 x3 x4 x5 x6 p q ⟨n, hk⟩ 7 7 rfl]
    rw [show 8 * (n + 1) = 8 * n + 8 from by ring, Finset.sum_range_succ, Finset.sum_range_succ, Finset.sum_range_succ,
      Finset.sum_range_succ, Finset.sum_range_succ, Finset.sum_range_succ, Finset.sum_range_succ, Finset.sum_range_succ]
    simp only [add_assoc, Nat.add_zero]

/-! ## The block the body stores -/

/-- The block over the staged blocks: at `(p, q)` the sum over the 128 input features of network `(f, q)` on `x0 (f, p)`. -/
def blockG (x0 : Vec Ideal S128x512 .f32) (x1 x2 : Vec Ideal S128x5x128 .f32) (x3 : Vec Ideal S128x5x5x128 .f32) (x4 x5 : Vec Ideal S128x5x128 .f32) (x6 : Vec Ideal S128x128 .f32) : Vec Ideal S512x128 .f32 :=
  fun y => ∑ f : Fin 128, Cert.Spec.net (x0 (ix2 f (y 0))) (fun j => x1 (ix3 f j (y 1))) (fun j => x2 (ix3 f j (y 1)))
    (fun kk j => x3 (ix4 f kk j (y 1))) (fun kk => x4 (ix3 f kk (y 1))) (fun kk => x5 (ix3 f kk (y 1))) (x6 (ix2 f (y 1)))

/-- The zero word is the zero of the extended reals. -/
theorem z0_eq : z0 = 0 := Ideal.ofBits_zero_f32

/-- WHAT THE BODY LEAVES IN THE OUTPUT'S STAGING BUFFER: its one store, through the whole buffer, of the accumulator after
    the last trip. -/
theorem out_eq (c : Dev nD) (i : grid0.Coords) (arg1 : Memref sig .tc .vmem S128x512 .f32) (harg1 : arg1.IsWhole) (arg2 : Memref sig .tc .vmem S128x5x128 .f32) (harg2 : arg2.IsWhole) (arg3 : Memref sig .tc .vmem S128x5x128 .f32) (harg3 : arg3.IsWhole) (arg4 : Memref sig .tc .vmem S128x5x5x128 .f32) (harg4 : arg4.IsWhole) (arg5 : Memref sig .tc .vmem S128x5x128 .f32) (harg5 : arg5.IsWhole) (arg6 : Memref sig .tc .vmem S128x5x128 .f32) (harg6 : arg6.IsWhole) (arg7 : Memref sig .tc .vmem S128x128 .f32) (harg7 : arg7.IsWhole) (arg8 : Memref sig .tc .vmem S512x128 .f32) (harg8 : arg8.IsWhole) (x0 : Vec Ideal S128x512 .f32) (x1 x2 : Vec Ideal S128x5x128 .f32) (x3 : Vec Ideal S128x5x5x128 .f32) (x4 x5 : Vec Ideal S128x5x128 .f32) (x6 : Vec Ideal S128x128 .f32) :
    out0_A_7 (F := Ideal) c i arg1 harg1 arg2 harg2 arg3 harg3 arg4 harg4 arg5 harg5 arg6 harg6 arg7 harg7 arg8 harg8 x0 x1 x2 x3 x4 x5 x6
      = blockG x0 x1 x2 x3 x4 x5 x6 := by
  have hz : (![0, 0] : Fin S512x128.rank → Nat) = fun _ => 0 := funext fun a => match a with | ⟨0, _⟩ => rfl | ⟨1, _⟩ => rfl
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  rw [View.canon_unit_zero hz]
  funext y
  obtain ⟨p, q, rfl⟩ : ∃ (p : Fin 512) (q : Fin 128), y = ix2 p q := ⟨y 0, y 1, eq_ix2 y⟩
  rw [show Scf.trips (0#32) (Scalar.addi 0#32 16#32) 1#32 = 16 from trips_eq, carried_apply _ _ _ _ _ _ _ _ _ _ _ _ _ _ _ _ _ _ _ _ _ _ _ _ _ p q 16 le_rfl]
  rw [z0_eq, zero_add, Finset.sum_range]
  unfold blockG
  refine Finset.sum_congr rfl fun f _ => ?_
  unfold featN
  rw [dif_pos f.isLt]
  unfold netRow
  rw [Cert.Spec.netK_zero]

end Cert.KernelIdeal.KLoop

end
-- ==== Proof.KArray.lean ====
/-
  From blocks to the array: the kernel's result as one function of the argument arrays.

  Before the region the host lays the arguments out for the kernel: `x` transposed to `[128, 2048]` (input feature, batch
  row), and each weight array `[16384, …]` split into (input feature, output feature, …) and the output feature moved
  last. So the staged arrays hold, at (input feature `f`, …, output feature `o`), the weights of network `f · 128 + o`.
  Grid point `t` stages columns `512 t … 512 t + 511` of the transposed `x` and the weight arrays whole, and writes back
  rows `512 t … 512 t + 511` of the result. With KLoop.lean's value of the body's block, what point `t` writes back is
  block `t` of `Spec.G` of the arguments; the four blocks tile the result, so the result array ends holding `Spec.G`.
-/
import proofs.«110157_j89584427860005_2_alg».proof.Proof.KLoop
import proofs.«110157_j89584427860005_2_alg».proof.Proof.Gen.KernelIdeal.Value
import Idealize.ShloMosaic.Lib.StableHlo.Run
import Idealize.ShloMosaic.Lib.ValueLayout
import Idealize.ShloMosaic.Lib.Pipeline.Value

set_option maxRecDepth 16384
set_option maxHeartbeats 4000000

noncomputable section

namespace Cert.KernelIdeal.KArray

open Cert.KernelIdeal Cert.KernelIdeal.Gen Cert.KernelIdeal.KLoop
open Idealize.ShloMosaic Idealize.ShloMosaic.TcCoe Idealize.ShloMosaic.ValueIdx Idealize.ShloMosaic.StableHlo
open Idealize.SL Idealize.SL.Sem
open Idealize.ShloMosaic.Pipeline (Dat)
open Cert.Spec (netIdx)
open scoped BigOperators

variable (m : (ℓ : Loc nD τ sig) → Buf (Elt Ideal) ℓ) (ρ : Dev nD → PrngReg)

/-! ## The staged arrays, read at an index -/

/-- The staged `x` is the argument transposed. -/
theorem Vx_apply (c : Dev nD) (f : Fin 128) (r : Fin 2048) :
    (V m c main_v11 : S128x2048.Idx → EReal) (ix2 f r) = (m ((c : Thread nD τ).loc main_arg0)) (ix2 r f) := by
  have e : (V m c main_v11 : S128x2048.Idx → EReal)
      = transpose S128x2048 [1, 0] (m ((c : Thread nD τ).loc main_arg0)) transposes_S2048x128_S128x2048_1_0 := by
    dsimp only [Gen.V, Gen.hostOps0]; after_results; try rfl
  rw [e]; exact transpose_ix2_apply _ _ f r

/-- A `[16384, 5, 1]` argument split into `[128, 128, 5]` and its last two axes exchanged: at `(f, j, o)` the argument's
    entry `(f · 128 + o, j, 0)`. -/
theorem relaid51 (X : S16384x5x1.Idx → EReal) (f : Fin 128) (j : Fin 5) (o : Fin 128) :
    transpose S128x5x128 [0, 2, 1] (shapeCast S128x128x5 X shapeCasts_S16384x5x1_S128x128x5)
        transposes_S128x128x5_S128x5x128_0_2_1 (ix3 f j o) = X (ix3 (netIdx f o) j 0) := by
  rw [transpose_ix3_021_apply]
  refine shapeCast_apply X _ _ _ ?_
  rw [Shape.rowMajor_val_three, Shape.rowMajor_val_three]
  show ((f.val * 128 + o.val) * 5 + j.val) * 1 + 0 = (f.val * 128 + o.val) * 5 + j.val
  omega

/-- The same for the `[16384, 1, 5]` argument: at `(f, k, o)` its entry `(f · 128 + o, 0, k)`. -/
theorem relaid15 (X : S16384x1x5.Idx → EReal) (f : Fin 128) (k : Fin 5) (o : Fin 128) :
    transpose S128x5x128 [0, 2, 1] (shapeCast S128x128x5 X shapeCasts_S16384x1x5_S128x128x5)
        transposes_S128x128x5_S128x5x128_0_2_1 (ix3 f k o) = X (ix3 (netIdx f o) 0 k) := by
  rw [transpose_ix3_021_apply]
  refine shapeCast_apply X _ _ _ ?_
  rw [Shape.rowMajor_val_three, Shape.rowMajor_val_three]
  show ((f.val * 128 + o.val) * 1 + 0) * 5 + k.val = (f.val * 128 + o.val) * 5 + k.val
  omega

/-- The `[16384, 5, 5]` argument split into `[128, 128, 5, 5]` and the output feature moved last: at `(f, k, j, o)` its entry
    `(f · 128 + o, k, j)`. -/
theorem relaid55 (X : S16384x5x5.Idx → EReal) (f : Fin 128) (k j : Fin 5) (o : Fin 128) :
    transpose S128x5x5x128 [0, 2, 3, 1] (shapeCast S128x128x5x5 X shapeCasts_S16384x5x5_S128x128x5x5)
        transposes_S128x128x5x5_S128x5x5x128_0_2_3_1 (ix4 f k j o) = X (ix3 (netIdx f o) k j) := by
  refine (transpose_apply _ _ _ _ (ix4 f o k j) fun b => match b with
    | ⟨0, _⟩ => rfl | ⟨1, _⟩ => rfl | ⟨2, _⟩ => rfl | ⟨3, _⟩ => rfl).trans ?_
  refine shapeCast_apply X _ _ _ ?_
  rw [Shape.rowMajor_val_three, Shape.rowMajor_val_four]
  show ((f.val * 128 + o.val) * 5 + k.val) * 5 + j.val = ((f.val * 128 + o.val) * 5 + k.val) * 5 + j.val
  rfl

/-- The `[16384, 1, 1]` argument viewed as `[128, 128]`: at `(f, o)` its entry `(f · 128 + o, 0, 0)`. -/
theorem relaid11 (X : S16384x1x1.Idx → EReal) (f o : Fin 128) :
    shapeCast S128x128 X shapeCasts_S16384x1x1_S128x128 (ix2 f o) = X (ix3 (netIdx f o) 0 0) := by
  refine shapeCast_apply X _ _ _ ?_
  rw [Shape.rowMajor_val_three, Shape.rowMajor_val_two]
  show ((f.val * 128 + o.val) * 1 + 0) * 1 + 0 = f.val * 128 + o.val
  omega

theorem Vw0_apply (c : Dev nD) (f : Fin 128) (j : Fin 5) (o : Fin 128) :
    (V m c main_v1 : S128x5x128.Idx → EReal) (ix3 f j o) = (m ((c : Thread nD τ).loc main_arg1)) (ix3 (netIdx f o) j 0) := by
  have e : (V m c main_v1 : S128x5x128.Idx → EReal)
      = transpose S128x5x128 [0, 2, 1] (shapeCast S128x128x5 (m ((c : Thread nD τ).loc main_arg1)) shapeCasts_S16384x5x1_S128x128x5)
          transposes_S128x128x5_S128x5x128_0_2_1 := by
    dsimp only [Gen.V, Gen.hostOps0]; after_results; try rfl
  rw [e]; exact relaid51 _ f j o
theorem Vb0_apply (c : Dev nD) (f : Fin 128) (j : Fin 5) (o : Fin 128) :
    (V m c main_v3 : S128x5x128.Idx → EReal) (ix3 f j o) = (m ((c : Thread nD τ).loc main_arg2)) (ix3 (netIdx f o) j 0) := by
  have e : (V m c main_v3 : S128x5x128.Idx → EReal)
      = transpose S128x5x128 [0, 2, 1] (shapeCast S128x128x5 (m ((c : Thread nD τ).loc main_arg2)) shapeCasts_S16384x5x1_S128x128x5)
          transposes_S128x128x5_S128x5x128_0_2_1 := by
    dsimp only [Gen.V, Gen.hostOps0]; after_results; try rfl
  rw [e]; exact relaid51 _ f j o
theorem Vw1_apply (c : Dev nD) (f : Fin 128) (k j : Fin 5) (o : Fin 128) :
    (V m c main_v5 : S128x5x5x128.Idx → EReal) (ix4 f k j o) = (m ((c : Thread nD τ).loc main_arg3)) (ix3 (netIdx f o) k j) := by
  have e : (V m c main_v5 : S128x5x5x128.Idx → EReal)
      = transpose S128x5x5x128 [0, 2, 3, 1] (shapeCast S128x128x5x5 (m ((c : Thread nD τ).loc main_arg3)) shapeCasts_S16384x5x5_S128x128x5x5)
          transposes_S128x128x5x5_S128x5x5x128_0_2_3_1 := by
    dsimp only [Gen.V, Gen.hostOps0]; after_results; try rfl
  rw [e]; exact relaid55 _ f k j o
theorem Vb1_apply (c : Dev nD) (f : Fin 128) (k : Fin 5) (o : Fin 128) :
    (V m c main_v7 : S128x5x128.Idx → EReal) (ix3 f k o) = (m ((c : Thread nD τ).loc main_arg4)) (ix3 (netIdx f o) k 0) := by
  have e : (V m c main_v7 : S128x5x128.Idx → EReal)
      = transpose S128x5x128 [0, 2, 1] (shapeCast S128x128x5 (m ((c : Thread nD τ).loc main_arg4)) shapeCasts_S16384x5x1_S128x128x5)
          transposes_S128x128x5_S128x5x128_0_2_1 := by
    dsimp only [Gen.V, Gen.hostOps0]; after_results; try rfl
  rw [e]; exact relaid51 _ f k o
theorem Vw2_apply (c : Dev nD) (f : Fin 128) (k : Fin 5) (o : Fin 128) :
    (V m c main_v9 : S128x5x128.Idx → EReal) (ix3 f k o) = (m ((c : Thread nD τ).loc main_arg5)) (ix3 (netIdx f o) 0 k) := by
  have e : (V m c main_v9 : S128x5x128.Idx → EReal)
      = transpose S128x5x128 [0, 2, 1] (shapeCast S128x128x5 (m ((c : Thread nD τ).loc main_arg5)) shapeCasts_S16384x1x5_S128x128x5)
          transposes_S128x128x5_S128x5x128_0_2_1 := by
    dsimp only [Gen.V, Gen.hostOps0]; after_results; try rfl
  rw [e]; exact relaid15 _ f k o
theorem Vb2_apply (c : Dev nD) (f o : Fin 128) :
    (V m c main_v10 : S128x128.Idx → EReal) (ix2 f o) = (m ((c : Thread nD τ).loc main_arg6)) (ix3 (netIdx f o) 0 0) := by
  have e : (V m c main_v10 : S128x128.Idx → EReal)
      = shapeCast S128x128 (m ((c : Thread nD τ).loc main_arg6)) shapeCasts_S16384x1x1_S128x128 := by
    dsimp only [Gen.V, Gen.hostOps0]; after_results; try rfl
  rw [e]; exact relaid11 _ f o

/-! ## The windows' blocks -/

/-- The printed index maps over the four grid points: the `x` window moves along the batch axis with the result's
    window, and the weight windows stay at block 0. -/
theorem idx_facts : ∀ t : Fin cfg0.N, win0_0.index t (0 : Fin 2) = 0 ∧ win0_0.index t (1 : Fin 2) = win0_7.index t (0 : Fin 2)
    ∧ win0_7.index t (1 : Fin 2) = 0 ∧ win0_7.index t (0 : Fin 2) ≤ 3
    ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) :=
  (by decide +kernel : ∀ t : Fin grid0.N, _)

/-- Every block row of the result is some point's. -/
theorem idx_onto : ∀ q0 : Fin 4, ∃ t : Fin cfg0.N, win0_7.index t = ![q0.val, 0] :=
  (by decide +kernel : ∀ q0 : Fin 4, ∃ t : Fin grid0.N, win0_7.index t = ![q0.val, 0])

/-- Batch row `p` of point `t`'s block, in the whole batch. -/
def rowOf (t : Fin cfg0.N) (p : Fin 512) : Fin 2048 :=
  ⟨win0_7.index t (0 : Fin 2) * 512 + p.val, by have := (idx_facts t).2.2.2.1; have := p.isLt; omega⟩

theorem iblk0_apply (c : Dev nD) (t : Fin cfg0.N) (f : Fin 128) (p : Fin 512) :
    iblk m c 0 t (ix2 f p) = (m ((c : Thread nD τ).loc main_arg0)) (ix2 (rowOf t p) f) := by
  refine Eq.trans ?_ (Vx_apply m c f (rowOf t p))
  show (V m c main_v11 : S128x2048.Idx → EReal) (((cfg0.win 0).blk t).view.emb (ix2 f p)) = _
  congr 1; funext a; apply Fin.ext
  obtain ⟨e0, e1, -⟩ := idx_facts t
  match a with
  | ⟨0, _⟩ => show win0_0.index t (0 : Fin 2) * 128 + 1 * f.val = f.val; omega
  | ⟨1, _⟩ => show win0_0.index t (1 : Fin 2) * 512 + 1 * p.val = win0_7.index t (0 : Fin 2) * 512 + p.val; omega

theorem iblk1_apply (c : Dev nD) (t : Fin cfg0.N) (f : Fin 128) (j : Fin 5) (o : Fin 128) :
    iblk m c 1 t (ix3 f j o) = (m ((c : Thread nD τ).loc main_arg1)) (ix3 (netIdx f o) j 0) := by
  refine Eq.trans ?_ (Vw0_apply m c f j o)
  show (V m c main_v1 : S128x5x128.Idx → EReal) (((cfg0.win 1).blk t).view.emb (ix3 f j o)) = _
  congr 1; funext a; apply Fin.ext
  have e := (idx_facts t).2.2.2.2.1
  match a with
  | ⟨0, _⟩ => show win0_1.index t (0 : Fin 3) * 128 + 1 * f.val = f.val; have := e 0; omega
  | ⟨1, _⟩ => show win0_1.index t (1 : Fin 3) * 5 + 1 * j.val = j.val; have := e 1; omega
  | ⟨2, _⟩ => show win0_1.index t (2 : Fin 3) * 128 + 1 * o.val = o.val; have := e 2; omega
theorem iblk2_apply (c : Dev nD) (t : Fin cfg0.N) (f : Fin 128) (j : Fin 5) (o : Fin 128) :
    iblk m c 2 t (ix3 f j o) = (m ((c : Thread nD τ).loc main_arg2)) (ix3 (netIdx f o) j 0) := by
  refine Eq.trans ?_ (Vb0_apply m c f j o)
  show (V m c main_v3 : S128x5x128.Idx → EReal) (((cfg0.win 2).blk t).view.emb (ix3 f j o)) = _
  congr 1; funext a; apply Fin.ext
  have e := (idx_facts t).2.2.2.2.2.1
  match a with
  | ⟨0, _⟩ => show win0_2.index t (0 : Fin 3) * 128 + 1 * f.val = f.val; have := e 0; omega
  | ⟨1, _⟩ => show win0_2.index t (1 : Fin 3) * 5 + 1 * j.val = j.val; have := e 1; omega
  | ⟨2, _⟩ => show win0_2.index t (2 : Fin 3) * 128 + 1 * o.val = o.val; have := e 2; omega
theorem iblk3_apply (c : Dev nD) (t : Fin cfg0.N) (f : Fin 128) (k j : Fin 5) (o : Fin 128) :
    iblk m c 3 t (ix4 f k j o) = (m ((c : Thread nD τ).loc main_arg3)) (ix3 (netIdx f o) k j) := by
  refine Eq.trans ?_ (Vw1_apply m c f k j o)
  show (V m c main_v5 : S128x5x5x128.Idx → EReal) (((cfg0.win 3).blk t).view.emb (ix4 f k j o)) = _
  congr 1; funext a; apply Fin.ext
  have e := (idx_facts t).2.2.2.2.2.2.1
  match a with
  | ⟨0, _⟩ => show win0_3.index t (0 : Fin 4) * 128 + 1 * f.val = f.val; have := e 0; omega
  | ⟨1, _⟩ => show win0_3.index t (1 : Fin 4) * 5 + 1 * k.val = k.val; have := e 1; omega
  | ⟨2, _⟩ => show win0_3.index t (2 : Fin 4) * 5 + 1 * j.val = j.val; have := e 2; omega
  | ⟨3, _⟩ => show win0_3.index t (3 : Fin 4) * 128 + 1 * o.val = o.val; have := e 3; omega
theorem iblk4_apply (c : Dev nD) (t : Fin cfg0.N) (f : Fin 128) (j : Fin 5) (o : Fin 128) :
    iblk m c 4 t (ix3 f j o) = (m ((c : Thread nD τ).loc main_arg4)) (ix3 (netIdx f o) j 0) := by
  refine Eq.trans ?_ (Vb1_apply m c f j o)
  show (V m c main_v7 : S128x5x128.Idx → EReal) (((cfg0.win 4).blk t).view.emb (ix3 f j o)) = _
  congr 1; funext a; apply Fin.ext
  have e := (idx_facts t).2.2.2.2.2.2.2.1
  match a with
  | ⟨0, _⟩ => show win0_4.index t (0 : Fin 3) * 128 + 1 * f.val = f.val; have := e 0; omega
  | ⟨1, _⟩ => show win0_4.index t (1 : Fin 3) * 5 + 1 * j.val = j.val; have := e 1; omega
  | ⟨2, _⟩ => show win0_4.index t (2 : Fin 3) * 128 + 1 * o.val = o.val; have := e 2; omega
theorem iblk5_apply (c : Dev nD) (t : Fin cfg0.N) (f : Fin 128) (j : Fin 5) (o : Fin 128) :
    iblk m c 5 t (ix3 f j o) = (m ((c : Thread nD τ).loc main_arg5)) (ix3 (netIdx f o) 0 j) := by
  refine Eq.trans ?_ (Vw2_apply m c f j o)
  show (V m c main_v9 : S128x5x128.Idx → EReal) (((cfg0.win 5).blk t).view.emb (ix3 f j o)) = _
  congr 1; funext a; apply Fin.ext
  have e := (idx_facts t).2.2.2.2.2.2.2.2.1
  match a with
  | ⟨0, _⟩ => show win0_5.index t (0 : Fin 3) * 128 + 1 * f.val = f.val; have := e 0; omega
  | ⟨1, _⟩ => show win0_5.index t (1 : Fin 3) * 5 + 1 * j.val = j.val; have := e 1; omega
  | ⟨2, _⟩ => show win0_5.index t (2 : Fin 3) * 128 + 1 * o.val = o.val; have := e 2; omega
theorem iblk6_apply (c : Dev nD) (t : Fin cfg0.N) (f o : Fin 128) :
    iblk m c 6 t (ix2 f o) = (m ((c : Thread nD τ).loc main_arg6)) (ix3 (netIdx f o) 0 0) := by
  refine Eq.trans ?_ (Vb2_apply m c f o)
  show (V m c main_v10 : S128x128.Idx → EReal) (((cfg0.win 6).blk t).view.emb (ix2 f o)) = _
  congr 1; funext a; apply Fin.ext
  have e := (idx_facts t).2.2.2.2.2.2.2.2.2
  match a with
  | ⟨0, _⟩ => show win0_6.index t (0 : Fin 2) * 128 + 1 * f.val = f.val; have := e 0; omega
  | ⟨1, _⟩ => show win0_6.index t (1 : Fin 2) * 128 + 1 * o.val = o.val; have := e 1; omega

/-! ## What a point writes back, and the whole array -/

/-- The result as a function of the argument arrays as launched. -/
abbrev result (c : Dev nD) : S2048x128.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- WHAT POINT `t` WRITES BACK is block `t` of the result. -/
theorem flushed_eq (c : Dev nD) (t : Fin cfg0.N) :
    (dats m 0 c).flushed 7 t = ((cfg0.win 7).blk t).view.read (Elt Ideal) (result m c) := by
  rw [Cert.KernelIdeal.Value.flushed7_A, out_eq]
  funext y
  obtain ⟨p, q, rfl⟩ : ∃ (p : Fin 512) (q : Fin 128), y = ix2 p q := ⟨y 0, y 1, eq_ix2 y⟩
  show blockG (iblk m c 0 t) (iblk m c 1 t) (iblk m c 2 t) (iblk m c 3 t) (iblk m c 4 t) (iblk m c 5 t) (iblk m c 6 t) (ix2 p q)
    = result m c (((cfg0.win 7).blk t).view.emb (ix2 p q))
  have he : ((cfg0.win 7).blk t).view.emb (ix2 p q) = ix2 (rowOf t p) q := by
    funext a; apply Fin.ext
    obtain ⟨-, -, e2, -⟩ := idx_facts t
    match a with
    | ⟨0, _⟩ => show win0_7.index t (0 : Fin 2) * 512 + 1 * p.val = win0_7.index t (0 : Fin 2) * 512 + p.val; omega
    | ⟨1, _⟩ => show win0_7.index t (1 : Fin 2) * 128 + 1 * q.val = q.val; omega
  rw [he]
  show (∑ f : Fin 128, _) = ∑ f : Fin 128, _
  refine Finset.sum_congr rfl fun f _ => ?_
  show Cert.Spec.net (iblk m c 0 t (ix2 f p)) (fun j => iblk m c 1 t (ix3 f j q)) (fun j => iblk m c 2 t (ix3 f j q))
      (fun kk j => iblk m c 3 t (ix4 f kk j q)) (fun kk => iblk m c 4 t (ix3 f kk q)) (fun kk => iblk m c 5 t (ix3 f kk q))
      (iblk m c 6 t (ix2 f q))
    = Cert.Spec.net ((m ((c : Thread nD τ).loc main_arg0)) (ix2 (rowOf t p) f)) (fun j => (m ((c : Thread nD τ).loc main_arg1)) (ix3 (netIdx f q) j 0))
      (fun j => (m ((c : Thread nD τ).loc main_arg2)) (ix3 (netIdx f q) j 0)) (fun kk j => (m ((c : Thread nD τ).loc main_arg3)) (ix3 (netIdx f q) kk j))
      (fun kk => (m ((c : Thread nD τ).loc main_arg4)) (ix3 (netIdx f q) kk 0)) (fun kk => (m ((c : Thread nD τ).loc main_arg5)) (ix3 (netIdx f q) 0 kk))
      ((m ((c : Thread nD τ).loc main_arg6)) (ix3 (netIdx f q) 0 0))
  simp only [iblk0_apply, iblk1_apply, iblk2_apply, iblk3_apply, iblk4_apply, iblk5_apply, iblk6_apply]

/-- An index of the result is in point `t`'s block iff each coordinate is in the block's range on its axis. -/
theorem mem_blk (t : Fin cfg0.N) (i : S2048x128.Idx) :
    i ∈ ((cfg0.win 7).blk t).view.set ↔ ∀ a : Fin 2, win0_7.index t a * S512x128.size a ≤ (i a).val
      ∧ (i a).val < win0_7.index t a * S512x128.size a + S512x128.size a := by
  show i ∈ ((View.whole main_v12).slice (win0_7.rect t)).set ↔ _
  rw [View.set_slice_whole, Rect.mem_set_unit]
  exact Iff.rfl

/-- The four blocks tile the result. -/
theorem cover (i : S2048x128.Idx) : ∃ t : Fin cfg0.N, (cfg0.win 7).flush t = true ∧ i ∈ ((cfg0.win 7).blk t).view.set := by
  have hi0 : (i 0).val < 2048 := (i 0).isLt
  have hi1 : (i 1).val < 128 := (i 1).isLt
  obtain ⟨t, ht⟩ := idx_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 128 ≤ (i 1).val ∧ (i 1).val < win0_7.index t (1 : Fin 2) * 128 + 128; omega

/-- THE RESULT ARRAY after the run. -/
theorem final (c : Dev nD) : (dats m 0 c).arrAt 7 cfg0.N = result m c :=
  (dats m 0 c).arrAt_eq_of_cover 7 (result m c) (fun t _ => flushed_eq m c t) cover

/-- The kernel's run re-posted: the result array at `Spec.G` of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.KArray

end
-- ==== Proof.RefRead.lean ====
/-
  The reference, read at an index: it computes `Spec.G`.

  The reference repeats each input feature's row of `x` (transposed) 128 times, so that network `f · 128 + o` is fed
  `x[r, f]` on batch row `r`; each of its three layers is a batched product contracted over one axis (of extent 1, 5, 5) plus a
  bias spread over the batch, the first two followed by a maximum with zero; the 16384 outputs are viewed as
  `[128, 128, batch]` and summed over the first axis from zero. Read one operation at a time at the indices a
  result entry `(r, o)` depends on, that is `Spec.G`: each product is the sum over its contracted index, the sum
  over the first axis is the sum over the input features, and `0 + a = a`.
-/
import proofs.«110157_j89584427860005_2_alg».proof.Proof.Gen.ReferenceIdeal.Read
import proofs.«110157_j89584427860005_2_alg».proof.Proof.Spec
import Idealize.ShloMosaic.PureOps.Ideal.Laws
import Idealize.ShloMosaic.Lib.ValueIdx

set_option maxRecDepth 16384

noncomputable section

namespace Cert.ReferenceIdeal.RefRead

open Cert.ReferenceIdeal Cert.ReferenceIdeal.Gen Cert.ReferenceIdeal.Read
open Idealize.ShloMosaic Idealize.ShloMosaic.ValueIdx
open Cert.Spec (netIdx)
open scoped BigOperators

variable (x0 : (⟨S2048x128, .f32⟩ : BufTy).Contents (Elt Ideal)) (x1 x2 : (⟨S16384x5x1, .f32⟩ : BufTy).Contents (Elt Ideal)) (x3 : (⟨S16384x5x5, .f32⟩ : BufTy).Contents (Elt Ideal)) (x4 : (⟨S16384x5x1, .f32⟩ : BufTy).Contents (Elt Ideal)) (x5 : (⟨S16384x1x5, .f32⟩ : BufTy).Contents (Elt Ideal)) (x6 : (⟨S16384x1x1, .f32⟩ : BufTy).Contents (Elt Ideal))

/-- The number network `f · 128 + o` is fed on batch row `r`: `x[r, f]`. -/
theorem input_apply (f o : Fin 128) (u : Fin 1) (r : Fin 2048) :
    val_main_v3 (F := Ideal) x0 (ix3 (netIdx f o) u r) = x0 (ix2 r f) := by
  rw [val_main_v3_apply, val_main_v2_apply, val_main_v1_apply, val_main_v0_apply]
  congr 1; funext a; apply Fin.ext
  have hf := f.isLt; have ho := o.isLt; have hr := r.isLt
  match a with
  | ⟨0, _⟩ => show ((f.val * 128 + o.val) * 2048 + r.val) % 2048 = r.val; omega
  | ⟨1, _⟩ => show ((f.val * 128 + o.val) * 2048 + r.val) / 262144 = f.val; omega

/-- The first hidden layer of network `n = f · 128 + o`, unit `j`, on batch row `r`. -/
theorem hid1_apply (f o : Fin 128) (j : Fin 5) (r : Fin 2048) :
    val_main_v7 (F := Ideal) x0 x1 x2 (ix3 (netIdx f o) j r)
      = max (x1 (ix3 (netIdx f o) j 0) * x0 (ix2 r f) + x2 (ix3 (netIdx f o) j 0)) 0 := by
  have e1 : lidx_main_v4 (ix3 (netIdx f o) j r) 0 = ix3 (netIdx f o) j 0 := funext fun a => Fin.ext (by match a with | ⟨0, _⟩ => rfl | ⟨1, _⟩ => rfl | ⟨2, _⟩ => rfl)
  have e2 : ridx_main_v4 (ix3 (netIdx f o) j r) 0 = ix3 (netIdx f o) 0 r := funext fun a => Fin.ext (by match a with | ⟨0, _⟩ => rfl | ⟨1, _⟩ => rfl | ⟨2, _⟩ => rfl)
  have e3 : idx_main_v5 (ix3 (netIdx f o) j r) = ix3 (netIdx f o) j 0 := funext fun a => Fin.ext (by match a with | ⟨0, _⟩ => rfl | ⟨1, _⟩ => rfl | ⟨2, _⟩ => rfl)
  rw [val_main_v7_apply, val_main_v6_apply, val_main_v4_apply, val_main_v5_apply, val_main_call0_v0_apply,
    val_main_call0_cst_apply, Fin.sum_univ_one, e1, e2, e3, input_apply]
  simp only [Ideal.addf_def, Ideal.maximumf_def, Ideal.ofBits_def, Ideal.ofBits_zero_f32]

/-- The second hidden layer, unit `k`. -/
theorem hid2_apply (f o : Fin 128) (k : Fin 5) (r : Fin 2048) :
    val_main_v11 (F := Ideal) x0 x1 x2 x3 x4 (ix3 (netIdx f o) k r)
      = max ((∑ j : Fin 5, x3 (ix3 (netIdx f o) k j) * val_main_v7 (F := Ideal) x0 x1 x2 (ix3 (netIdx f o) j r))
          + x4 (ix3 (netIdx f o) k 0)) 0 := by
  have e1 : ∀ j : Fin 5, lidx_main_v8 (ix3 (netIdx f o) k r) j = ix3 (netIdx f o) k j := fun j => funext fun a => Fin.ext (by match a with | ⟨0, _⟩ => rfl | ⟨1, _⟩ => rfl | ⟨2, _⟩ => rfl)
  have e2 : ∀ j : Fin 5, ridx_main_v8 (ix3 (netIdx f o) k r) j = ix3 (netIdx f o) j r := fun j => funext fun a => Fin.ext (by match a with | ⟨0, _⟩ => rfl | ⟨1, _⟩ => rfl | ⟨2, _⟩ => rfl)
  have e3 : idx_main_v9 (ix3 (netIdx f o) k r) = ix3 (netIdx f o) k 0 := funext fun a => Fin.ext (by match a with | ⟨0, _⟩ => rfl | ⟨1, _⟩ => rfl | ⟨2, _⟩ => rfl)
  rw [val_main_v11_apply, val_main_v10_apply, val_main_v8_apply, val_main_v9_apply, val_main_call1_v0_apply,
    val_main_call1_cst_apply, e3]
  simp only [e1, e2, Ideal.addf_def, Ideal.maximumf_def, Ideal.ofBits_def, Ideal.ofBits_zero_f32]

/-- The network's output. -/
theorem out_apply (f o : Fin 128) (u : Fin 1) (r : Fin 2048) :
    val_main_v14 (F := Ideal) x0 x1 x2 x3 x4 x5 x6 (ix3 (netIdx f o) u r)
      = (∑ k : Fin 5, x5 (ix3 (netIdx f o) 0 k) * val_main_v11 (F := Ideal) x0 x1 x2 x3 x4 (ix3 (netIdx f o) k r))
          + x6 (ix3 (netIdx f o) 0 0) := by
  have hu : u = 0 := Subsingleton.elim _ _
  subst hu
  have e1 : ∀ k : Fin 5, lidx_main_v12 (ix3 (netIdx f o) (0 : Fin 1) r) k = ix3 (netIdx f o) 0 k := fun k => funext fun a => Fin.ext (by match a with | ⟨0, _⟩ => rfl | ⟨1, _⟩ => rfl | ⟨2, _⟩ => rfl)
  have e2 : ∀ k : Fin 5, ridx_main_v12 (ix3 (netIdx f o) (0 : Fin 1) r) k = ix3 (netIdx f o) k r := fun k => funext fun a => Fin.ext (by match a with | ⟨0, _⟩ => rfl | ⟨1, _⟩ => rfl | ⟨2, _⟩ => rfl)
  have e3 : idx_main_v13 (ix3 (netIdx f o) (0 : Fin 1) r) = ix3 (netIdx f o) 0 0 := funext fun a => Fin.ext (by match a with | ⟨0, _⟩ => rfl | ⟨1, _⟩ => rfl | ⟨2, _⟩ => rfl)
  rw [val_main_v14_apply, val_main_v12_apply, val_main_v13_apply, e3]
  simp only [e1, e2, Ideal.addf_def]

/-- THE REFERENCE IS `Spec.G`. -/
theorem reference_eq : val_main_v17 (F := Ideal) x0 x1 x2 x3 x4 x5 x6 = Cert.Spec.G x0 x1 x2 x3 x4 x5 x6 := by
  funext i
  obtain ⟨r, o, rfl⟩ : ∃ (r : Fin 2048) (o : Fin 128), i = ix2 r o := ⟨i 0, i 1, eq_ix2 i⟩
  have e : ∀ f : Fin 128, idx_main_v15 (idx_main_v16 (idx_main_v17 (ix2 r o)) f) = ix3 (netIdx f o) (0 : Fin 1) r := fun f => by
    funext a; apply Fin.ext
    have hf := f.isLt; have ho := o.isLt; have hr := r.isLt
    match a with
    | ⟨0, _⟩ => show ((f.val * 128 + o.val) * 2048 + r.val) / 2048 = f.val * 128 + o.val; omega
    | ⟨1, _⟩ => rfl
    | ⟨2, _⟩ => show ((f.val * 128 + o.val) * 2048 + r.val) % 2048 = r.val; omega
  rw [val_main_v17_apply, val_main_v16_apply, val_main_cst_apply]
  simp only [val_main_v15_apply, e, out_apply, hid2_apply, hid1_apply, Ideal.ofBits_def, Ideal.ofBits_zero_f32, zero_add]
  rfl

end Cert.ReferenceIdeal.RefRead

end
-- ==== Proof.lean ====
/-
  A batch of 2048 rows of 128 numbers goes through 128 · 128 small networks 1 → 5 → 5 → 1 (one per pair of an input feature
  and an output feature, rectifiers after the first two layers), and the result at (row, output feature) is the sum over
  the input features of the networks' outputs (Proof/Spec.lean, `Spec.G`).

  The kernel lays the weights out with the input feature leading and the output feature last, and for each block of 512
  batch rows runs 16 trips of 8 input features each, evaluating one network for all 512 × 128 (row, output feature)
  pairs at once and adding it to an accumulator started at zero; each inner sum is accumulated term by term from zero.
  The reference evaluates all 16384 networks on the whole batch by three batched products and sums over the input features.
  Over the extended reals the two agree entry by entry: they differ only in the order and grouping of finite sums and in
  starting sums from zero, and addition there is commutative and associative with `0 + a = a`, infinite entries or not —
  so the precondition (finite inputs) is not used for the values.

  Proof/KTrip.lean reads one trip at an entry, Proof/KLoop.lean the 16 trips and the block the body stores,
  Proof/KArray.lean the host's layout of the arguments, the windows' blocks and the four blocks tiling the result;
  Proof/RefRead.lean reads the reference. The kernel's idealization rewrote nothing, so `preserves` is trivial; the three
  frames are the generated ones (the reference's is its run with the result dropped).
-/
import proofs.«110157_j89584427860005_2_alg».proof.Defs
import proofs.«110157_j89584427860005_2_alg».proof.Proof.Gen.Kernel
import proofs.«110157_j89584427860005_2_alg».proof.Proof.Gen.Kernel.Skeleton
import proofs.«110157_j89584427860005_2_alg».proof.Proof.Gen.Kernel.Loops
import proofs.«110157_j89584427860005_2_alg».proof.Proof.Gen.Kernel.Launch
import proofs.«110157_j89584427860005_2_alg».proof.Proof.Gen.Kernel.Points
import proofs.«110157_j89584427860005_2_alg».proof.Proof.Gen.Kernel.Frame
import proofs.«110157_j89584427860005_2_alg».proof.Proof.Gen.KernelIdeal
import proofs.«110157_j89584427860005_2_alg».proof.Proof.Gen.KernelIdeal.Skeleton
import proofs.«110157_j89584427860005_2_alg».proof.Proof.Gen.KernelIdeal.Loops
import proofs.«110157_j89584427860005_2_alg».proof.Proof.Gen.KernelIdeal.Launch
import proofs.«110157_j89584427860005_2_alg».proof.Proof.Gen.KernelIdeal.Points
import proofs.«110157_j89584427860005_2_alg».proof.Proof.Gen.KernelIdeal.Frame
import proofs.«110157_j89584427860005_2_alg».proof.Proof.Gen.ReferenceIdeal
import proofs.«110157_j89584427860005_2_alg».proof.Proof.Gen.Pre_finite_inputs
import proofs.«110157_j89584427860005_2_alg».proof.Proof.Gen.KernelIdeal.Value
import proofs.«110157_j89584427860005_2_alg».proof.Proof.Gen.ReferenceIdeal.Run
import proofs.«110157_j89584427860005_2_alg».proof.Proof.Gen.ReferenceIdeal.Read
import proofs.«110157_j89584427860005_2_alg».proof.Proof.KArray
import proofs.«110157_j89584427860005_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Spec.G` of the arguments: the kernel by its run read block by block,
    the reference by its run read operation by operation; the arguments agree, so the two arrays are equal. -/
theorem algebraic : Cert.algebraic_KernelIdeal_ReferenceIdeal := by
  intro m ρ m' ρ' _ hagree
  refine ⟨fun c => Cert.KernelIdeal.KArray.result m c, Cert.KernelIdeal.KArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefRead.reference_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
